-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x800000 32) (main_arg2 : FVec F S64x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S5000x64 : Shape := ⟨2, ![5000, 64]⟩
abbrev S800000x64 : Shape := ⟨2, ![800000, 64]⟩
abbrev S1x64 : Shape := ⟨2, ![1, 64]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩

abbrev nBuf : Space → Nat
  | .hbm => 105
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S800000x1, .f32⟩
  | .hbm, ⟨51, _⟩ => ⟨S100000, .f32⟩
  | .hbm, ⟨52, _⟩ => ⟨S100000x1, .f32⟩
  | .hbm, ⟨53, _⟩ => ⟨S100000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S100000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x64, .f32⟩
  | .hbm, ⟨88, _⟩ => ⟨S800000x64, .f32⟩
  | .hbm, ⟨89, _⟩ => ⟨S800000x64, .f32⟩
  | .hbm, ⟨90, _⟩ => ⟨S_, .f32⟩
  | .hbm, ⟨91, _⟩ => ⟨S100000x64, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S1x16, .f32⟩
  | .hbm, ⟨104, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x16, .f32⟩
  | .local _ .vmem, ⟨33, _⟩ => ⟨S1x16, .f32⟩
  | .local _ .vmem, ⟨34, _⟩ => ⟨S5000x16, .f32⟩
  | .local _ .vmem, ⟨35, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_c_17 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S5000x64_S64x64_S5000x64_1_0_0_1_n_n_wf : DotDims.WF S5000x64 S64x64 S5000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v74) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v74) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x64 : Shape := ⟨2, ![800000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 178
  | .vmem => 0
  | .smem => 0
  | _ => 0

abbrev hbmTy0_0 (i : Nat) : BufTy := match i % 128 with
  | 0 => ⟨S100000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x16, .f32⟩
  | 7 => ⟨S16, .f32⟩
  | 8 => ⟨S1x800000, .i32⟩
  | 9 => ⟨S800000, .i32⟩
  | 10 => ⟨S1x800000, .i32⟩
  | 11 => ⟨S800000, .i32⟩
  | 12 => ⟨S100000x64, .f32⟩
  | 13 => ⟨S_, .f32⟩
  | 14 => ⟨S100000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x1, .f32⟩
  | 61 => ⟨S800000x64, .f32⟩
  | 62 => ⟨S800000x64, .f32⟩
  | 63 => ⟨S_, .f32⟩
  | 64 => ⟨S100000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S100000x64, .f32⟩
  | 74 => ⟨S100000, .f32⟩
  | 75 => ⟨S100000x1, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S_, .f32⟩
  | 87 => ⟨S100000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S_, .f32⟩
  | 97 => ⟨S800000, .f32⟩
  | 98 => ⟨S100000, .f32⟩
  | 99 => ⟨S_, .f32⟩
  | 100 => ⟨S100000, .f32⟩
  | 101 => ⟨S100000, .f32⟩
  | 102 => ⟨S_, .f32⟩
  | 103 => ⟨S100000, .f32⟩
  | 104 => ⟨S100000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S800000, .f32⟩
  | 124 => ⟨S_, .i32⟩
  | 125 => ⟨S800000, .i32⟩
  | 126 => ⟨S800000, .i1⟩
  | 127 => ⟨S_, .i32⟩
  | _ => ⟨S100000x64, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x64, .f32⟩
  | 5 => ⟨S800000x1, .f32⟩
  | 6 => ⟨S800000x64, .f32⟩
  | 7 => ⟨S800000x64, .f32⟩
  | 8 => ⟨S_, .f32⟩
  | 9 => ⟨S100000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S100000x64, .f32⟩
  | 19 => ⟨S100000, .f32⟩
  | 20 => ⟨S100000x1, .f32⟩
  | 21 => ⟨S100000x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S100000x16, .f32⟩
  | 32 => ⟨S1x16, .f32⟩
  | 33 => ⟨S100000x16, .f32⟩
  | 34 => ⟨S100000x16, .f32⟩
  | 35 => ⟨S_, .f32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x16, .f32⟩
  | 42 => ⟨S100000x16, .f32⟩
  | 43 => ⟨S100000x16, .f32⟩
  | 44 => ⟨S_, .f32⟩
  | 45 => ⟨S100000, .f32⟩
  | 46 => ⟨S100000x1, .f32⟩
  | 47 => ⟨S100000x1, .f32⟩
  | 48 => ⟨S100000x16, .f32⟩
  | 49 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call0_cst : Ref sig .tc := ⟨.hbm, 82, rfl⟩
abbrev main_call0_v0 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_c_19 : Ref sig .tc := ⟨.hbm, 105, rfl⟩
abbrev main_v74 : Ref sig .tc := ⟨.hbm, 106, rfl⟩
abbrev main_v75 : Ref sig .tc := ⟨.hbm, 107, rfl⟩
abbrev main_c_20 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_21 : Ref sig .tc := ⟨.hbm, 114, rfl⟩
abbrev main_v81 : Ref sig .tc := ⟨.hbm, 115, rfl⟩
abbrev main_v82 : Ref sig .tc := ⟨.hbm, 116, rfl⟩
abbrev main_c_22 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_23 : Ref sig .tc := ⟨.hbm, 124, rfl⟩
abbrev main_v89 : Ref sig .tc := ⟨.hbm, 125, rfl⟩
abbrev main_v90 : Ref sig .tc := ⟨.hbm, 126, rfl⟩
abbrev main_c_24 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_25 : Ref sig .tc := ⟨.hbm, 136, rfl⟩
abbrev main_v99 : Ref sig .tc := ⟨.hbm, 137, rfl⟩
abbrev main_c_26 : Ref sig .tc := ⟨.hbm, 138, rfl⟩
abbrev main_v100 : Ref sig .tc := ⟨.hbm, 139, rfl⟩
abbrev main_v101 : Ref sig .tc := ⟨.hbm, 140, rfl⟩
abbrev main_c_27 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call1_cst : Ref sig .tc := ⟨.hbm, 155, rfl⟩
abbrev main_call1_v0 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_call2_cst : Ref sig .tc := ⟨.hbm, 163, rfl⟩
abbrev main_call2_v0 : Ref sig .tc := ⟨.hbm, 164, rfl⟩
abbrev main_call2_cst_0 : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_cst_1 : Ref sig .tc := ⟨.hbm, 172, rfl⟩
abbrev main_call2_v7 : Ref sig .tc := ⟨.hbm, 173, rfl⟩
abbrev main_call2_v8 : Ref sig .tc := ⟨.hbm, 174, rfl⟩
abbrev main_call2_v9 : Ref sig .tc := ⟨.hbm, 175, rfl⟩
abbrev main_call2_v10 : Ref sig .tc := ⟨.hbm, 176, rfl⟩
abbrev main_v121 : Ref sig .tc := ⟨.hbm, 177, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  dot_S100000x64_S64x64_S100000x64_1_0_0_1_n_n_wf : DotDims.WF S100000x64 S64x64 S100000x64 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x16_S100000x16_1_0_0_1_n_n_wf : DotDims.WF S100000x64 S64x16 S100000x16 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.GcnSpec.lean ====
/-
  The graph convolution network both programs compute, written once as whole-array operations.

  From the edge list `x1 : i32[2, 800000]` (row 0 the sources, row 1 the destinations, a negative entry read from the
  end): the in-degree of every node counted with a self loop, `deg = scatter-add of ones at the destinations + 1`,
  its inverse square root `dinv = deg ^ (-1/2)`, the edge weight `dinv[src] · dinv[dst]` and the self weight `dinv²`.
  One convolution of node features `h : f32[100000, 64]` is
      conv h b = (scatter-add at the destinations of `h[src] · weight`) + h · dinv² + b,
  and the network is
      out1   = max (conv (x0 · W1) b1) 0
      out2   = max (conv (out1 · W2) b2) 0 + out1
      logits = out2 · Wl + bl
      result = (logits - rowmax) - log (rowsum (exp (logits - rowmax))).
  Gather, scatter-add and the power are kept as the whole-array operations they are; nothing about them is used but
  that equal operands give equal results.
-/
import proofs.«165956_j55662776156458_2_alg».proof.ReferenceIdeal

noncomputable section

namespace Cert.GcnSpec

open Idealize.ShloMosaic Idealize.ShloMosaic.TcCoe Cert.ReferenceIdeal

variable {F : FTy → Type} [FloatOps F] [Cert.ReferenceIdeal.Facts]

open Cert.ReferenceIdeal.Facts₀ Cert.ReferenceIdeal.Facts

/-- Row 0 of the edge list: the source node of every edge. -/
def srcRow (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- Row 1 of the edge list: the destination node of every edge. -/
def dstRow (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- Node numbers as a column of indices: a negative number `r` stands for `r + 100000`. -/
def nodeIdx (r : (⟨S800000, .i32⟩ : BufTy).Contents (Elt F)) : (⟨S800000x1, .i32⟩ : BufTy).Contents (Elt F) :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 100000#32))) r)

/-- `deg ^ (-1/2)`, `deg` the number of edges into a node plus one. -/
def dinv (x1 : (⟨S2x800000, .i32⟩ : BufTy).Contents (Elt F)) : (⟨S100000, .f32⟩ : BufTy).Contents (Elt F) :=
  Host.powf
    (addf
      (Host.scatterAdd scatter_S100000_S800000x1_S800000_n_0_0_1
        (broadcastInDim S100000 ![] bcast_S_S100000 (constant S_ .f32 0x00000000#32))
        (nodeIdx (dstRow x1))
        (broadcastInDim S800000 ![] bcast_S_S800000 (constant S_ .f32 0x3F800000#32)))
      (broadcastInDim S100000 ![] bcast_S_S100000 (constant S_ .f32 0x3F800000#32)))
    (broadcastInDim S100000 ![] bcast_S_S100000 (constant S_ .f32 0xBF000000#32))

/-- The weight of every edge: `dinv` at its source times `dinv` at its destination. -/
def edgeWeight (x1 : (⟨S2x800000, .i32⟩ : BufTy).Contents (Elt F)) : (⟨S800000, .f32⟩ : BufTy).Contents (Elt F) :=
  mulf (Host.gather gather_S100000_S800000x1_S800000_n_0_n_n_0_1_1 (dinv x1) (nodeIdx (srcRow x1)))
    (Host.gather gather_S100000_S800000x1_S800000_n_0_n_n_0_1_1 (dinv x1) (nodeIdx (dstRow x1)))

/-- The weight of every node's self loop, `dinv²`. -/
def selfWeight (x1 : (⟨S2x800000, .i32⟩ : BufTy).Contents (Elt F)) : (⟨S100000, .f32⟩ : BufTy).Contents (Elt F) :=
  mulf (dinv x1) (dinv x1)

/-- The neighbours' part of a convolution: every edge carries its source's row, scaled by the edge's weight `w`, to
    its destination, where the rows arriving are summed. -/
def aggregate (h : (⟨S100000x64, .f32⟩ : BufTy).Contents (Elt F)) (x1 : (⟨S2x800000, .i32⟩ : BufTy).Contents (Elt F))
    (w : (⟨S800000x64, .f32⟩ : BufTy).Contents (Elt F)) : (⟨S100000x64, .f32⟩ : BufTy).Contents (Elt F) :=
  Host.scatterAdd scatter_S100000x64_S800000x1_S800000x64_1_0_0_1
    (broadcastInDim S100000x64 ![] bcast_S_S100000x64 (constant S_ .f32 0x00000000#32))
    (nodeIdx (dstRow x1))
    (mulf (Host.gather gather_S100000x64_S800000x1_S800000x64_1_0_n_n_0_1_164 h (nodeIdx (srcRow x1))) w)

/-- The edge weights repeated along the 64 features. -/
def edgeWeightRows (x1 : (⟨S2x800000, .i32⟩ : BufTy).Contents (Elt F)) : (⟨S800000x64, .f32⟩ : BufTy).Contents (Elt F) :=
  broadcastInDim S800000x64 ![0, 1] bcast_S800000x1_S800000x64_0_1
    (broadcastInDim S800000x1 ![0] bcast_S800000_S800000x1_0 (edgeWeight x1))

/-- Neighbours' part `a`, features `h` scaled row by row by the column `s`, the bias row `b`, and `max · 0`. -/
def combine (a h : (⟨S100000x64, .f32⟩ : BufTy).Contents (Elt F)) (s : (⟨S100000x1, .f32⟩ : BufTy).Contents (Elt F))
    (b : (⟨S1x64, .f32⟩ : BufTy).Contents (Elt F)) : (⟨S100000x64, .f32⟩ : BufTy).Contents (Elt F) :=
  maximumf
    (addf
      (addf a (mulf h (broadcastInDim S100000x64 ![0, 1] bcast_S100000x1_S100000x64_0_1 s)))
      (broadcastInDim S100000x64 ![0, 1] bcast_S1x64_S100000x64_0_1 b))
    (broadcastInDim S100000x64 ![] bcast_S_S100000x64 (constant S_ .f32 0x00000000#32))

/-- One convolution followed by `max · 0`: neighbours, self loop, bias. -/
def convRelu (h : (⟨S100000x64, .f32⟩ : BufTy).Contents (Elt F)) (x1 : (⟨S2x800000, .i32⟩ : BufTy).Contents (Elt F))
    (b : (⟨S64, .f32⟩ : BufTy).Contents (Elt F)) : (⟨S100000x64, .f32⟩ : BufTy).Contents (Elt F) :=
  combine (aggregate h x1 (edgeWeightRows x1)) h
    (broadcastInDim S100000x1 ![0] bcast_S100000_S100000x1_0 (selfWeight x1))
    (broadcastInDim S1x64 ![1] bcast_S64_S1x64_1 b)

/-- The first layer. -/
def layer1 (x0 : (⟨S100000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F)) :
    (⟨S100000x64, .f32⟩ : BufTy).Contents (Elt F) :=
  convRelu (Host.dotGeneral dot_S100000x64_S64x64_S100000x64_1_0_0_1_n_n none x0 x2) x1 x3

/-- The second layer, with the first layer's output added back. -/
def layer2 (o1 : (⟨S100000x64, .f32⟩ : BufTy).Contents (Elt F)) (x1 : (⟨S2x800000, .i32⟩ : BufTy).Contents (Elt F))
    (x4 : (⟨S64x64, .f32⟩ : BufTy).Contents (Elt F)) (x5 : (⟨S64, .f32⟩ : BufTy).Contents (Elt F)) :
    (⟨S100000x64, .f32⟩ : BufTy).Contents (Elt F) :=
  addf (convRelu (Host.dotGeneral dot_S100000x64_S64x64_S100000x64_1_0_0_1_n_n none o1 x4) x1 x5) o1

/-- The class scores. -/
def logits (o2 : (⟨S100000x64, .f32⟩ : BufTy).Contents (Elt F)) (x6 : (⟨S64x16, .f32⟩ : BufTy).Contents (Elt F))
    (x7 : (⟨S16, .f32⟩ : BufTy).Contents (Elt F)) : (⟨S100000x16, .f32⟩ : BufTy).Contents (Elt F) :=
  addf (Host.dotGeneral dot_S100000x64_S64x16_S100000x16_1_0_0_1_n_n none o2 x6)
    (broadcastInDim S100000x16 ![0, 1] bcast_S1x16_S100000x16_0_1 (broadcastInDim S1x16 ![1] bcast_S16_S1x16_1 x7))

/-- The scores minus their row maximum. -/
def shifted (l : (⟨S100000x16, .f32⟩ : BufTy).Contents (Elt F)) : (⟨S100000x16, .f32⟩ : BufTy).Contents (Elt F) :=
  subf l (broadcastInDim S100000x16 ![0, 1] bcast_S100000x1_S100000x16_0_1
    (broadcastInDim S100000x1 ![0] bcast_S100000_S100000x1_0
      (maximumf (broadcastInDim S100000 ![] bcast_S_S100000 (constant S_ .f32 0xFF800000#32))
        (Host.reduce FloatOps.maximumf l (constant S_ .f32 0xFF800000#32) reducesTo_S100000x16_S100000_d1 h_S_))))

/-- The logarithm of the row-wise softmax. -/
def logSoftmax (l : (⟨S100000x16, .f32⟩ : BufTy).Contents (Elt F)) : (⟨S100000x16, .f32⟩ : BufTy).Contents (Elt F) :=
  subf (shifted l) (broadcastInDim S100000x16 ![0, 1] bcast_S100000x1_S100000x16_0_1
    (Host.log (broadcastInDim S100000x1 ![0] bcast_S100000_S100000x1_0
      (Host.reduceAdd (Host.exp (shifted l)) (constant S_ .f32 0x00000000#32) reducesTo_S100000x16_S100000_d1 h_S_))))

/-- Scores from the features `o2`, the weights `x6` and the bias row `b`, then the logarithm of the softmax. -/
def classify (o2 : (⟨S100000x64, .f32⟩ : BufTy).Contents (Elt F)) (x6 : (⟨S64x16, .f32⟩ : BufTy).Contents (Elt F))
    (b : (⟨S1x16, .f32⟩ : BufTy).Contents (Elt F)) : (⟨S100000x16, .f32⟩ : BufTy).Contents (Elt F) :=
  logSoftmax (addf (Host.dotGeneral dot_S100000x64_S64x16_S100000x16_1_0_0_1_n_n none o2 x6)
    (broadcastInDim S100000x16 ![0, 1] bcast_S1x16_S100000x16_0_1 b))

/-- The network. -/
def network (x0 : (⟨S100000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F))
    (x4 : (⟨S64x64, .f32⟩ : BufTy).Contents (Elt F)) (x5 : (⟨S64, .f32⟩ : BufTy).Contents (Elt F))
    (x6 : (⟨S64x16, .f32⟩ : BufTy).Contents (Elt F)) (x7 : (⟨S16, .f32⟩ : BufTy).Contents (Elt F)) :
    (⟨S100000x16, .f32⟩ : BufTy).Contents (Elt F) :=
  classify (layer2 (layer1 x0 x1 x2 x3) x1 x4 x5) x6 (broadcastInDim S1x16 ![1] bcast_S16_S1x16_1 x7)

end Cert.GcnSpec

end
-- ==== Proof.KernelRun.lean ====
/-
  The idealized kernel program's run, with its RESULT named.

  @main is five kernel regions among four stretches of host operations. Every weakly fair execution terminates, and in
  every final state each buffer that outlives the regions holds what the fold of the segments leaves in it: for the
  result buffer that is the last region's output array as its write-backs leave it, and for every argument its launch
  contents. Each segment starts from the thread state the one before it ends in — every unscoped buffer at the
  boundary's contents, nothing owed —, so the last thread state, read against a final memory, gives every such buffer
  its contents at the last boundary.
-/
import proofs.«165956_j55662776156458_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; the result buffer ends at the contents the last segment boundary
    gives it, and every argument array as launched. -/
theorem run_result : θ_run defs (onTc (τ := τ) (main (F := F))) ⟨m, fun _ => 0, ρ⟩ (fun r => ∀ c : Dev nD,
      r.2.mem ((c.tc : Thread nD τ).loc main_v76) = W9 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v76 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.ResultRun

end
-- ==== Proof.MatmulRows.lean ====
/-
  The two projection regions: each leaves in its output array the matrix product of the arrays it finds.

  A region of twenty grid points; point `t` multiplies rows `5000·t … 5000·t + 4999` of the left array by the whole
  right array and writes the rows' products back. At the ideal values a product into a zero accumulator is the plain sum
  over the 64 contracted positions, and so is the whole arrays' product; a row of the output depends on the same row of
  the left operand only. So the blocks written back are the blocks of ONE array, the whole product, and they tile it.
-/
import proofs.«165956_j55662776156458_2_alg».proof.Proof.Gen.KernelIdeal.Frame
import proofs.«165956_j55662776156458_2_alg».proof.Proof.Gen.ReferenceIdeal
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.MatmulRows

open Idealize.ShloMosaic Idealize.ShloMosaic.TcCoe Idealize.SL.Sem
open Cert.KernelIdeal Cert.KernelIdeal.Gen

theorem zero_start : (![0, 0] : Fin 2 → Nat) = fun _ => 0 := funext fun a => by fin_cases a <;> rfl

/-! ## Both products as sums over the 64 contracted positions -/

/-- Row `i 0`, position `k` of the left array. -/
abbrev leftAt (i : S100000x64.Idx) (k : Fin 64) : S100000x64.Idx := fun a => match a with
  | ⟨0, _⟩ => ⟨(i 0).val, (i 0).isLt⟩
  | ⟨1, _⟩ => ⟨k.val, k.isLt⟩
/-- Position `k`, column `i 1` of the right array. -/
abbrev rightAt (i : S100000x64.Idx) (k : Fin 64) : S64x64.Idx := fun a => match a with
  | ⟨0, _⟩ => ⟨k.val, k.isLt⟩
  | ⟨1, _⟩ => ⟨(i 1).val, (i 1).isLt⟩
/-- The same two inside a block of 5000 rows. -/
abbrev leftIn (j : S5000x64.Idx) (k : Fin 64) : S5000x64.Idx := fun a => match a with
  | ⟨0, _⟩ => ⟨(j 0).val, (j 0).isLt⟩
  | ⟨1, _⟩ => ⟨k.val, k.isLt⟩
abbrev rightIn (j : S5000x64.Idx) (k : Fin 64) : S64x64.Idx := fun a => match a with
  | ⟨0, _⟩ => ⟨k.val, k.isLt⟩
  | ⟨1, _⟩ => ⟨(j 1).val, (j 1).isLt⟩

/-- The operand positions of the whole arrays' product, coordinate by coordinate. -/
theorem whole_l0 (i : S100000x64.Idx) (q : (Cert.ReferenceIdeal.dot_S100000x64_S64x64_S100000x64_1_0_0_1_n_n).contr.Idx) : ((Cert.ReferenceIdeal.dot_S100000x64_S64x64_S100000x64_1_0_0_1_n_n).lhsIdx i q 0).val = (i 0).val := by
  unfold DotDims.lhsIdx
  rw [dif_neg (show ¬(0 : Fin Cert.ReferenceIdeal.S100000x64.rank) ∈ (Cert.ReferenceIdeal.dot_S100000x64_S64x64_S100000x64_1_0_0_1_n_n).lhsBatch by decide), dif_pos (show (0 : Fin Cert.ReferenceIdeal.S100000x64.rank) ∈ (Cert.ReferenceIdeal.dot_S100000x64_S64x64_S100000x64_1_0_0_1_n_n).lhsNonContracting by decide)]
  rfl
theorem whole_l1 (i : S100000x64.Idx) (q : (Cert.ReferenceIdeal.dot_S100000x64_S64x64_S100000x64_1_0_0_1_n_n).contr.Idx) : ((Cert.ReferenceIdeal.dot_S100000x64_S64x64_S100000x64_1_0_0_1_n_n).lhsIdx i q 1).val = (q ⟨0, by decide⟩).val :=
  (Cert.ReferenceIdeal.dot_S100000x64_S64x64_S100000x64_1_0_0_1_n_n).lhsIdx_val_of_single rfl i q
theorem whole_r0 (i : S100000x64.Idx) (q : (Cert.ReferenceIdeal.dot_S100000x64_S64x64_S100000x64_1_0_0_1_n_n).contr.Idx) : ((Cert.ReferenceIdeal.dot_S100000x64_S64x64_S100000x64_1_0_0_1_n_n).rhsIdx i q 0).val = (q ⟨0, by decide⟩).val :=
  (Cert.ReferenceIdeal.dot_S100000x64_S64x64_S100000x64_1_0_0_1_n_n).rhsIdx_val_of_single rfl i q
theorem whole_r1 (i : S100000x64.Idx) (q : (Cert.ReferenceIdeal.dot_S100000x64_S64x64_S100000x64_1_0_0_1_n_n).contr.Idx) : ((Cert.ReferenceIdeal.dot_S100000x64_S64x64_S100000x64_1_0_0_1_n_n).rhsIdx i q 1).val = (i 1).val := by
  unfold DotDims.rhsIdx
  rw [dif_neg (show ¬(1 : Fin Cert.ReferenceIdeal.S64x64.rank) ∈ (Cert.ReferenceIdeal.dot_S100000x64_S64x64_S100000x64_1_0_0_1_n_n).rhsBatch by decide), dif_pos (show (1 : Fin Cert.ReferenceIdeal.S64x64.rank) ∈ (Cert.ReferenceIdeal.dot_S100000x64_S64x64_S100000x64_1_0_0_1_n_n).rhsNonContracting by decide)]
  rfl

/-- The whole arrays' product at an entry: the sum over `k` of row entry times column entry. -/
theorem whole_apply (X : FVec Ideal S100000x64 .f32) (W : FVec Ideal S64x64 .f32) (i : S100000x64.Idx) :
    Host.dotGeneral (F := Ideal) Cert.ReferenceIdeal.dot_S100000x64_S64x64_S100000x64_1_0_0_1_n_n none X W i = ∑ k : Fin 64, X (leftAt i k) * W (rightAt i k) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : (Cert.ReferenceIdeal.dot_S100000x64_S64x64_S100000x64_1_0_0_1_n_n).lhsIdx i ((ValueIdx.contrEquiv1 Cert.ReferenceIdeal.dot_S100000x64_S64x64_S100000x64_1_0_0_1_n_n 64 rfl rfl).symm k) = leftAt i k := funext fun a => Fin.ext (by
    match a with
    | ⟨0, _⟩ => exact whole_l0 _ _
    | ⟨1, _⟩ => exact (whole_l1 _ _).trans hk)
  have er : (Cert.ReferenceIdeal.dot_S100000x64_S64x64_S100000x64_1_0_0_1_n_n).rhsIdx i ((ValueIdx.contrEquiv1 Cert.ReferenceIdeal.dot_S100000x64_S64x64_S100000x64_1_0_0_1_n_n 64 rfl rfl).symm k) = rightAt i k := funext fun a => Fin.ext (by
    match a with
    | ⟨0, _⟩ => exact (whole_r0 _ _).trans hk
    | ⟨1, _⟩ => exact whole_r1 _ _)
  rw [el, er]

/-- The operand positions of a block's product, coordinate by coordinate. -/
theorem block_l0 (i : S5000x64.Idx) (q : (dot_S5000x64_S64x64_S5000x64_1_0_0_1_n_n).contr.Idx) : ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide), dif_pos (show (0 : Fin S5000x64.rank) ∈ (dot_S5000x64_S64x64_S5000x64_1_0_0_1_n_n).lhsNonContracting by decide)]
  rfl
theorem block_l1 (i : S5000x64.Idx) (q : (dot_S5000x64_S64x64_S5000x64_1_0_0_1_n_n).contr.Idx) : ((dot_S5000x64_S64x64_S5000x64_1_0_0_1_n_n).lhsIdx i q 1).val = (q ⟨0, by decide⟩).val :=
  (dot_S5000x64_S64x64_S5000x64_1_0_0_1_n_n).lhsIdx_val_of_single rfl i q
theorem block_r0 (i : S5000x64.Idx) (q : (dot_S5000x64_S64x64_S5000x64_1_0_0_1_n_n).contr.Idx) : ((dot_S5000x64_S64x64_S5000x64_1_0_0_1_n_n).rhsIdx i q 0).val = (q ⟨0, by decide⟩).val :=
  (dot_S5000x64_S64x64_S5000x64_1_0_0_1_n_n).rhsIdx_val_of_single rfl i q
theorem block_r1 (i : S5000x64.Idx) (q : (dot_S5000x64_S64x64_S5000x64_1_0_0_1_n_n).contr.Idx) : ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide), dif_pos (show (1 : Fin S64x64.rank) ∈ (dot_S5000x64_S64x64_S5000x64_1_0_0_1_n_n).rhsNonContracting by decide)]
  rfl

/-- A block's product into a zero accumulator at an entry: the same sum inside the block. -/
theorem block_apply (x : FVec Ideal S5000x64 .f32) (w : FVec Ideal S64x64 .f32) (j : S5000x64.Idx) :
    FloatOps.matmul (F := Ideal) dot_S5000x64_S64x64_S5000x64_1_0_0_1_n_n none x w (constant S5000x64 .f32 0x00000000#32) j = ∑ k : Fin 64, x (leftIn j k) * w (rightIn j k) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : (dot_S5000x64_S64x64_S5000x64_1_0_0_1_n_n).lhsIdx j ((ValueIdx.contrEquiv1 dot_S5000x64_S64x64_S5000x64_1_0_0_1_n_n 64 rfl rfl).symm k) = leftIn j k := funext fun a => Fin.ext (by
    match a with
    | ⟨0, _⟩ => exact block_l0 _ _
    | ⟨1, _⟩ => exact (block_l1 _ _).trans hk)
  have er : (dot_S5000x64_S64x64_S5000x64_1_0_0_1_n_n).rhsIdx j ((ValueIdx.contrEquiv1 dot_S5000x64_S64x64_S5000x64_1_0_0_1_n_n 64 rfl rfl).symm k) = rightIn j k := funext fun a => Fin.ext (by
    match a with
    | ⟨0, _⟩ => exact (block_r0 _ _).trans hk
    | ⟨1, _⟩ => exact block_r1 _ _)
  rw [el, er]

/-! ## Region 0: the blocks written back are the blocks of the whole product -/

section Region0

variable (V : (c : Dev nD) → (b : Ref sig .tc) → Buf (Elt Ideal) ((c : Thread nD τ).loc b))

/-- The left array as the region finds it. -/
abbrev left0 (c : Dev nD) : FVec Ideal S100000x64 .f32 := V c (Pipeline.arrRef spec0 0)
/-- The right array as the region finds it. -/
abbrev right0 (c : Dev nD) : FVec Ideal S64x64 .f32 := V c (Pipeline.arrRef spec0 1)

/-- The body's stored value at an entry of the block: the sum over the 64 contracted positions (the change of float
    format on the way in is the identity at the ideal values). -/
theorem pay0_apply (x : Vec Ideal S5000x64 .f32) (w : Vec Ideal S64x64 .f32) (j : S5000x64.Idx) :
    k0_pay1 x w j = ∑ k : Fin 64, x (leftIn j k) * w (rightIn j k) :=
  (show k0_pay1 x w j = FloatOps.matmul (F := Ideal) dot_S5000x64_S64x64_S5000x64_1_0_0_1_n_n none x w (constant S5000x64 .f32 0x00000000#32) j from rfl).trans
    (block_apply x w j)

/-- The printed index maps over the grid: point `t` reads block row `t` of the left array and writes block row `t` of
    the output; the right array is one block. -/
theorem idx0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block row of the output is some point's. -/
theorem onto0 : ∀ q : Fin 20, ∃ t : Fin cfg0.N, win0_2.index t = ![q.val, 0] :=
  (by decide +kernel : ∀ q : Fin 20, ∃ t : Fin grid0.N, win0_2.index t = ![q.val, 0])

/-- What point `t` writes back is block `t` of the whole product of the arrays the region finds. -/
theorem flushed0 (c : Dev nD) (t : Fin cfg0.N) :
    (dat0 V c).flushed 2 t = ((cfg0.win 2).blk t).view.read (Elt Ideal)
      (Host.dotGeneral (F := Ideal) Cert.ReferenceIdeal.dot_S100000x64_S64x64_S100000x64_1_0_0_1_n_n none (left0 V c) (right0 V c)) := by
  show (cfg0.win 2).cut (grid0.coords t) ((dat0 V c).after 2 t) = _
  rw [after0_2]
  unfold out0_2
  rw [View.canon_unit_zero zero_start]
  simp only [View.ld_unit_zero (S := S5000x64) zero_start, View.ld_unit_zero (S := S64x64) zero_start]
  obtain ⟨e0, e1, e2, e3, e4, e5⟩ := idx0 t
  funext j
  show k0_pay1 (iblk0 V c 0 t) (iblk0 V c 1 t) j
    = Host.dotGeneral (F := Ideal) Cert.ReferenceIdeal.dot_S100000x64_S64x64_S100000x64_1_0_0_1_n_n none (left0 V c) (right0 V c) (((cfg0.win 2).blk t).view.emb j)
  refine (pay0_apply _ _ j).trans ?_
  refine Eq.trans ?_ (whole_apply _ _ _).symm
  refine Finset.sum_congr rfl fun k _ => ?_
  have h0 : ((cfg0.win 0).blk t).view.emb (leftIn j k) = leftAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (rightIn j k) = rightAt (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  show left0 V c (((cfg0.win 0).blk t).view.emb (leftIn j k)) * right0 V c (((cfg0.win 1).blk t).view.emb (rightIn j k))
    = left0 V c (leftAt (((cfg0.win 2).blk t).view.emb j) k) * right0 V c (rightAt (((cfg0.win 2).blk t).view.emb j) k)
  rw [h0, h1]

/-- An entry of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Every entry of the output array is in the block of the point `row / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the whole product of the two arrays the region finds. -/
theorem rows0 (c : Dev nD) :
    (dat0 V c).arrAt 2 cfg0.N
      = Host.dotGeneral (F := Ideal) Cert.ReferenceIdeal.dot_S100000x64_S64x64_S100000x64_1_0_0_1_n_n none (left0 V c) (right0 V c) :=
  (dat0 V c).arrAt_eq_of_cover 2 _ (fun t _ => flushed0 V c t) cover0

end Region0

/-! ## Region 2: the blocks written back are the blocks of the whole product -/

section Region2

variable (V : (c : Dev nD) → (b : Ref sig .tc) → Buf (Elt Ideal) ((c : Thread nD τ).loc b))

/-- The left array as the region finds it. -/
abbrev left2 (c : Dev nD) : FVec Ideal S100000x64 .f32 := V c (Pipeline.arrRef spec2 0)
/-- The right array as the region finds it. -/
abbrev right2 (c : Dev nD) : FVec Ideal S64x64 .f32 := V c (Pipeline.arrRef spec2 1)

/-- The body's stored value at an entry of the block: the sum over the 64 contracted positions (the cast of the loaded block to its own shape and the
    change of float format on the way in are the identity at the ideal values). -/
theorem pay2_apply (x : Vec Ideal S5000x64 .f32) (w : Vec Ideal S64x64 .f32) (j : S5000x64.Idx) :
    k2_pay1 x w j = ∑ k : Fin 64, x (leftIn j k) * w (rightIn j k) := by
  have e : k2_pay1 x w j = FloatOps.matmul (F := Ideal) dot_S5000x64_S64x64_S5000x64_1_0_0_1_n_n none
      (shapeCast S5000x64 x Cert.KernelIdeal.Facts₀.shapeCasts_S5000x64_S5000x64) w (constant S5000x64 .f32 0x00000000#32) j := rfl
  rw [e, shapeCast_self]
  exact block_apply x w j

/-- The printed index maps over the grid: point `t` reads block row `t` of the left array and writes block row `t` of
    the output; the right array is one block. -/
theorem idx2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block row of the output is some point's. -/
theorem onto2 : ∀ q : Fin 20, ∃ t : Fin cfg2.N, win2_2.index t = ![q.val, 0] :=
  (by decide +kernel : ∀ q : Fin 20, ∃ t : Fin grid2.N, win2_2.index t = ![q.val, 0])

/-- What point `t` writes back is block `t` of the whole product of the arrays the region finds. -/
theorem flushed2 (c : Dev nD) (t : Fin cfg2.N) :
    (dat2 V c).flushed 2 t = ((cfg2.win 2).blk t).view.read (Elt Ideal)
      (Host.dotGeneral (F := Ideal) Cert.ReferenceIdeal.dot_S100000x64_S64x64_S100000x64_1_0_0_1_n_n none (left2 V c) (right2 V c)) := by
  show (cfg2.win 2).cut (grid2.coords t) ((dat2 V c).after 2 t) = _
  rw [after2_2]
  unfold out2_2
  rw [View.canon_unit_zero zero_start]
  simp only [View.ld_unit_zero (S := S5000x64) zero_start, View.ld_unit_zero (S := S64x64) zero_start]
  obtain ⟨e0, e1, e2, e3, e4, e5⟩ := idx2 t
  funext j
  show k2_pay1 (iblk2 V c 0 t) (iblk2 V c 1 t) j
    = Host.dotGeneral (F := Ideal) Cert.ReferenceIdeal.dot_S100000x64_S64x64_S100000x64_1_0_0_1_n_n none (left2 V c) (right2 V c) (((cfg2.win 2).blk t).view.emb j)
  refine (pay2_apply _ _ j).trans ?_
  refine Eq.trans ?_ (whole_apply _ _ _).symm
  refine Finset.sum_congr rfl fun k _ => ?_
  have h0 : ((cfg2.win 0).blk t).view.emb (leftIn j k) = leftAt (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (rightIn j k) = rightAt (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  show left2 V c (((cfg2.win 0).blk t).view.emb (leftIn j k)) * right2 V c (((cfg2.win 1).blk t).view.emb (rightIn j k))
    = left2 V c (leftAt (((cfg2.win 2).blk t).view.emb j) k) * right2 V c (rightAt (((cfg2.win 2).blk t).view.emb j) k)
  rw [h0, h1]

/-- An entry of the output array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v55).slice (win2_2.rect t)).set ↔ _
  rw [View.set_slice_whole, Rect.mem_set_unit]
  exact Iff.rfl

/-- Every entry of the output array is in the block of the point `row / 5000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region: the whole product of the two arrays the region finds. -/
theorem rows2 (c : Dev nD) :
    (dat2 V c).arrAt 2 cfg2.N
      = Host.dotGeneral (F := Ideal) Cert.ReferenceIdeal.dot_S100000x64_S64x64_S100000x64_1_0_0_1_n_n none (left2 V c) (right2 V c) :=
  (dat2 V c).arrAt_eq_of_cover 2 _ (fun t _ => flushed2 V c t) cover2

end Region2

end Cert.KernelIdeal.MatmulRows

end
-- ==== Proof.CombineRows.lean ====
/-
  What the two pointwise regions of the network leave in their output arrays, each as one whole-array function of the
  arrays the region finds.

  Both regions walk the 100000 rows of [100000, 64] arrays in twenty blocks of 5000 rows: point `t` works on rows
  5000·t … 5000·t + 4999. On a block the first computes
      out = max ((agg + h · coef) + bias) 0,
  with `agg`, `h` blocks of 5000 rows, `coef` the matching 5000 rows of a one-column array, repeated along the 64
  columns, and `bias` the one row of a [1, 64] array, repeated along the rows; the second computes the same and adds
  the matching block of a residual array.

  Element (p, q) of point `t`'s block sits at row 5000·t + p, column q of every row-blocked array, so it reads the
  coefficient of row 5000·t + p and the bias of column q: exactly what the whole-array function
  `max ((a + h · s) + b) 0` (the column `s` repeated along the columns, the row `b` along the rows) reads at that
  row and column. Hence every point writes back its block of that one function, and since row `r` lies in the block
  of point `r / 5000` the blocks tile the array, which therefore ends holding the function everywhere.
-/
import proofs.«165956_j55662776156458_2_alg».proof.Proof.Gen.KernelIdeal.Frame
import proofs.«165956_j55662776156458_2_alg».proof.Proof.Gen.ReferenceIdeal
import proofs.«165956_j55662776156458_2_alg».proof.Proof.GcnSpec
import Idealize.ShloMosaic.Lib.Pipeline.Value
import Idealize.ShloMosaic.Lib.ValueIdx
import Idealize.ShloMosaic.Lib.ValueLayout
import Idealize.ShloMosaic.PureOps.Ideal
noncomputable section
namespace Cert.KernelIdeal.CombineRows
open Idealize.ShloMosaic Idealize.ShloMosaic.TcCoe Idealize.SL.Sem
open Idealize.ShloMosaic.ValueIdx
open Cert.KernelIdeal Cert.KernelIdeal.Gen

/-! ## The arithmetic at one element -/

/-- The whole-array function at an index: row `i 0` of the column `s`, column `i 1` of the row `b`. -/
theorem combine_apply (a h : (⟨Cert.ReferenceIdeal.S100000x64, .f32⟩ : BufTy).Contents (Elt Ideal))
    (s : (⟨Cert.ReferenceIdeal.S100000x1, .f32⟩ : BufTy).Contents (Elt Ideal))
    (b : (⟨Cert.ReferenceIdeal.S1x64, .f32⟩ : BufTy).Contents (Elt Ideal))
    (i : Cert.ReferenceIdeal.S100000x64.Idx) (k : Cert.ReferenceIdeal.S100000x1.Idx) (l : Cert.ReferenceIdeal.S1x64.Idx)
    (hk : (k 0).val = (i 0).val) (hl : (l 1).val = (i 1).val) :
    Cert.GcnSpec.combine a h s b i = max ((a i + h i * s k) + b l) (Ideal.ofBits .f32 0x00000000#32) := by
  unfold Cert.GcnSpec.combine
  show max ((a i + h i * broadcastInDim _ _ _ s i) + broadcastInDim _ _ _ b i) (Ideal.ofBits .f32 0x00000000#32) = _
  have es := broadcastInDim_apply (![0, 1] : Fin 2 → Fin 2) Cert.ReferenceIdeal.Facts₀.bcast_S100000x1_S100000x64_0_1 s i k (fun ax => by
    match ax with
    | ⟨0, _⟩ => show (k 0).val = if (100000 : ℕ) = 1 then 0 else (i 0).val; rw [if_neg (by omega)]; exact hk
    | ⟨1, _⟩ => show (k 1).val = if (1 : ℕ) = 1 then 0 else (i 1).val; rw [if_pos rfl]; have : (k 1).val < 1 := (k 1).isLt; omega)
  have eb := broadcastInDim_apply (![0, 1] : Fin 2 → Fin 2) Cert.ReferenceIdeal.Facts₀.bcast_S1x64_S100000x64_0_1 b i l (fun ax => by
    match ax with
    | ⟨0, _⟩ => show (l 0).val = if (1 : ℕ) = 1 then 0 else (i 0).val; rw [if_pos rfl]; have : (l 0).val < 1 := (l 0).isLt; omega
    | ⟨1, _⟩ => show (l 1).val = if (64 : ℕ) = 1 then 0 else (i 1).val; rw [if_neg (by omega)]; exact hl)
  rw [es, eb]

/-- The body's arithmetic at an index of the block. -/
theorem pay1_apply (x0 x1 : Vec Ideal S5000x64 .f32) (x2 : Vec Ideal S5000x1 .f32) (x3 : Vec Ideal S1x64 .f32)
    (j : S5000x64.Idx) (k : S5000x1.Idx) (l : S1x64.Idx)
    (hk : (k 0).val = (j 0).val) (hl : (l 1).val = (j 1).val) :
    k1_pay1 x0 x1 x2 x3 j = max ((x0 j + x1 j * x2 k) + x3 l) (Ideal.ofBits .f32 0x00000000#32) := by
  unfold k1_pay1
  simp only [shapeCast_self]
  show max ((x0 j + x1 j * broadcastTo _ x2 _ j) + broadcastTo _ x3 _ j) (Ideal.ofBits .f32 0x00000000#32) = _
  have e2 := broadcastTo_apply x2 Cert.KernelIdeal.Facts₀.broadcasts_S5000x1_S5000x64 j k (fun ax => by
    match ax with
    | ⟨0, _⟩ => show (k 0).val = if (5000 : ℕ) = 1 then 0 else (j 0).val; rw [if_neg (by omega)]; exact hk
    | ⟨1, _⟩ => show (k 1).val = if (1 : ℕ) = 1 then 0 else (j 1).val; rw [if_pos rfl]; have : (k 1).val < 1 := (k 1).isLt; omega)
  have e3 := broadcastTo_apply x3 Cert.KernelIdeal.Facts₀.broadcasts_S1x64_S5000x64 j l (fun ax => by
    match ax with
    | ⟨0, _⟩ => show (l 0).val = if (1 : ℕ) = 1 then 0 else (j 0).val; rw [if_pos rfl]; have : (l 0).val < 1 := (l 0).isLt; omega
    | ⟨1, _⟩ => show (l 1).val = if (64 : ℕ) = 1 then 0 else (j 1).val; rw [if_neg (by omega)]; exact hl)
  rw [e2, e3]

/-! ## Region 1 -/

variable (V : (c : Dev nD) → (b : Ref sig .tc) → Buf (Elt Ideal) ((c : Thread nD τ).loc b))

/-- The offsets of a whole-buffer access, however spelt, are zero on both axes. -/
theorem offsets_zero : (![0, 0] : Fin 2 → Nat) = fun _ => 0 := funext fun a => by fin_cases a <;> rfl

/-- The kernel's index maps over the twenty points: point `t` takes block `(t, 0)` of every row-blocked operand and
    the one block `(0, 0)` of the bias row. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 400000 in
/-- What point `t` of region 1 writes back is its block of the whole-array function. -/
theorem flushed1 (c : Dev nD) (t : Fin cfg1.N) :
    (dat1 V c).flushed 4 t = ((cfg1.win 4).blk t).view.read (Elt Ideal)
      (Cert.GcnSpec.combine (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero offsets_zero]
  simp only [View.ld_unit_zero (S := S5000x64) offsets_zero, View.ld_unit_zero (S := S5000x1) offsets_zero,
    View.ld_unit_zero (S := S1x64) offsets_zero]
  obtain ⟨a00, a01, a10, a11, a20, a21, a30, a31, a40, a41⟩ := index1 t
  funext j
  have hj0 : (j 0).val < 5000 := (j 0).isLt
  have hj1 : (j 1).val < 64 := (j 1).isLt
  have e0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have e1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  let k' : S5000x1.Idx := ix2 (⟨(j 0).val, hj0⟩ : Fin 5000) (0 : Fin 1)
  let l' : S1x64.Idx := ix2 (0 : Fin 1) (⟨(j 1).val, hj1⟩ : Fin 64)
  show k1_pay1 (iblk1 V c 0 t) (iblk1 V c 1 t) (iblk1 V c 2 t) (iblk1 V c 3 t) j
    = Cert.GcnSpec.combine (V c (Pipeline.arrRef spec1 0)) (V c (Pipeline.arrRef spec1 1))
        (V c (Pipeline.arrRef spec1 2)) (V c (Pipeline.arrRef spec1 3)) (((cfg1.win 4).blk t).view.emb j)
  refine (pay1_apply (iblk1 V c 0 t) (iblk1 V c 1 t) (iblk1 V c 2 t) (iblk1 V c 3 t) j k' l' rfl rfl).trans ?_
  refine Eq.trans ?_ (combine_apply (V c (Pipeline.arrRef spec1 0)) (V c (Pipeline.arrRef spec1 1))
    (V c (Pipeline.arrRef spec1 2)) (V c (Pipeline.arrRef spec1 3)) (((cfg1.win 4).blk t).view.emb j)
    (((cfg1.win 2).blk t).view.emb k') (((cfg1.win 3).blk t).view.emb l') ?_ ?_).symm
  · have r0 : iblk1 V c 0 t j = V c (Pipeline.arrRef spec1 0) (((cfg1.win 4).blk t).view.emb j) := by
      rw [← e0]; rfl
    have r1 : iblk1 V c 1 t j = V c (Pipeline.arrRef spec1 1) (((cfg1.win 4).blk t).view.emb j) := by
      rw [← e1]; rfl
    rw [r0, r1]
    rfl
  · show win1_2.index t (0 : Fin 2) * 5000 + 1 * (j 0).val = win1_4.index t (0 : Fin 2) * 5000 + 1 * (j 0).val
    omega
  · show win1_3.index t (1 : Fin 2) * 64 + 1 * (j 1).val = win1_4.index t (1 : Fin 2) * 64 + 1 * (j 1).val
    omega

/-- An index of the array is in point `t`'s block iff each coordinate is in the block's range on its axis. -/
theorem mem_block1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v54).slice (win1_4.rect t)).set ↔ _
  rw [View.set_slice_whole, Rect.mem_set_unit]
  exact Iff.rfl

/-- Row `r` lies in the block of point `r / 5000`: the twenty blocks of 5000 rows tile the 100000 rows. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 20 := N_1
  let t : Fin cfg1.N := ⟨(i 0).val / 5000, by show _ < grid1.N; omega⟩
  have ht : t.val = (i 0).val / 5000 := rfl
  obtain ⟨-, -, -, -, -, -, -, -, a40, a41⟩ := index1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- Region 1 leaves in its output array the whole-array function of the arrays it finds. -/
theorem rows1 (c : Dev nD) :
    (dat1 V c).arrAt 4 cfg1.N
      = Cert.GcnSpec.combine (V c (Pipeline.arrRef spec1 0)) (V c (Pipeline.arrRef spec1 1)) (V c (Pipeline.arrRef spec1 2)) (V c (Pipeline.arrRef spec1 3)) :=
  (dat1 V c).arrAt_eq_of_cover 4 _ (fun t _ => flushed1 V c t) cover1

/-! ## Region 3: the same, and the residual rows added -/

/-- The whole-array function with the residual added, at an index. -/
theorem combine_add_apply (a h r : (⟨Cert.ReferenceIdeal.S100000x64, .f32⟩ : BufTy).Contents (Elt Ideal))
    (s : (⟨Cert.ReferenceIdeal.S100000x1, .f32⟩ : BufTy).Contents (Elt Ideal))
    (b : (⟨Cert.ReferenceIdeal.S1x64, .f32⟩ : BufTy).Contents (Elt Ideal))
    (i : Cert.ReferenceIdeal.S100000x64.Idx) (k : Cert.ReferenceIdeal.S100000x1.Idx) (l : Cert.ReferenceIdeal.S1x64.Idx)
    (hk : (k 0).val = (i 0).val) (hl : (l 1).val = (i 1).val) :
    addf (Cert.GcnSpec.combine a h s b) r i
      = max ((a i + h i * s k) + b l) (Ideal.ofBits .f32 0x00000000#32) + r i := by
  show Cert.GcnSpec.combine a h s b i + r i = _
  rw [combine_apply a h s b i k l hk hl]

/-- The body's arithmetic at an index of the block: region 1's, plus the residual block there. -/
theorem pay3_apply (x0 x1 : Vec Ideal S5000x64 .f32) (x2 : Vec Ideal S5000x1 .f32) (x3 : Vec Ideal S1x64 .f32)
    (x4 : Vec Ideal S5000x64 .f32) (j : S5000x64.Idx) (k : S5000x1.Idx) (l : S1x64.Idx)
    (hk : (k 0).val = (j 0).val) (hl : (l 1).val = (j 1).val) :
    k3_pay1 x0 x1 x2 x3 x4 j = max ((x0 j + x1 j * x2 k) + x3 l) (Ideal.ofBits .f32 0x00000000#32) + x4 j := by
  have e : k3_pay1 x0 x1 x2 x3 x4 j = k1_pay1 x0 x1 x2 x3 j + x4 j := by
    unfold k3_pay1 k1_pay1
    simp only [shapeCast_self]
    rfl
  rw [e, pay1_apply x0 x1 x2 x3 j k l hk hl]

/-- The kernel's index maps over the twenty points: point `t` takes block `(t, 0)` of every row-blocked operand and
    the one block `(0, 0)` of the bias row. -/
theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

set_option maxHeartbeats 400000 in
/-- What point `t` of region 3 writes back is its block of the whole-array function with the residual added. -/
theorem flushed3 (c : Dev nD) (t : Fin cfg3.N) :
    (dat3 V c).flushed 5 t = ((cfg3.win 5).blk t).view.read (Elt Ideal)
      (addf (Cert.GcnSpec.combine (V c (Pipeline.arrRef spec3 0)) (V c (Pipeline.arrRef spec3 1))
        (V c (Pipeline.arrRef spec3 2)) (V c (Pipeline.arrRef spec3 3))) (V c (Pipeline.arrRef spec3 4))) := by
  show (cfg3.win 5).cut (grid3.coords t) ((dat3 V c).after 5 t) = _
  rw [after3_5]
  unfold out3_5
  rw [View.canon_unit_zero offsets_zero]
  simp only [View.ld_unit_zero (S := S5000x64) offsets_zero, View.ld_unit_zero (S := S5000x1) offsets_zero,
    View.ld_unit_zero (S := S1x64) offsets_zero]
  obtain ⟨a00, a01, a10, a11, a20, a21, a30, a31, a40, a41, a50, a51⟩ := index3 t
  funext j
  have hj0 : (j 0).val < 5000 := (j 0).isLt
  have hj1 : (j 1).val < 64 := (j 1).isLt
  have e0 : ((cfg3.win 0).blk t).view.emb j = ((cfg3.win 5).blk t).view.emb j := by
    funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 64 + 1 * (j 1).val = win3_5.index t (1 : Fin 2) * 64 + 1 * (j 1).val; omega
  have e1 : ((cfg3.win 1).blk t).view.emb j = ((cfg3.win 5).blk t).view.emb j := by
    funext a; apply Fin.ext
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 64 + 1 * (j 1).val = win3_5.index t (1 : Fin 2) * 64 + 1 * (j 1).val; omega
  have e4 : ((cfg3.win 4).blk t).view.emb j = ((cfg3.win 5).blk t).view.emb j := by
    funext a; apply Fin.ext
    match a with
    | ⟨0, _⟩ => show win3_4.index t (0 : Fin 2) * 5000 + 1 * (j 0).val = win3_5.index t (0 : Fin 2) * 5000 + 1 * (j 0).val; omega
    | ⟨1, _⟩ => show win3_4.index t (1 : Fin 2) * 64 + 1 * (j 1).val = win3_5.index t (1 : Fin 2) * 64 + 1 * (j 1).val; omega
  let k' : S5000x1.Idx := ix2 (⟨(j 0).val, hj0⟩ : Fin 5000) (0 : Fin 1)
  let l' : S1x64.Idx := ix2 (0 : Fin 1) (⟨(j 1).val, hj1⟩ : Fin 64)
  show k3_pay1 (iblk3 V c 0 t) (iblk3 V c 1 t) (iblk3 V c 2 t) (iblk3 V c 3 t) (iblk3 V c 4 t) j
    = addf (Cert.GcnSpec.combine (V c (Pipeline.arrRef spec3 0)) (V c (Pipeline.arrRef spec3 1))
        (V c (Pipeline.arrRef spec3 2)) (V c (Pipeline.arrRef spec3 3))) (V c (Pipeline.arrRef spec3 4))
        (((cfg3.win 5).blk t).view.emb j)
  refine (pay3_apply (iblk3 V c 0 t) (iblk3 V c 1 t) (iblk3 V c 2 t) (iblk3 V c 3 t) (iblk3 V c 4 t) j k' l' rfl rfl).trans ?_
  refine Eq.trans ?_ (combine_add_apply (V c (Pipeline.arrRef spec3 0)) (V c (Pipeline.arrRef spec3 1))
    (V c (Pipeline.arrRef spec3 4)) (V c (Pipeline.arrRef spec3 2)) (V c (Pipeline.arrRef spec3 3))
    (((cfg3.win 5).blk t).view.emb j) (((cfg3.win 2).blk t).view.emb k') (((cfg3.win 3).blk t).view.emb l') ?_ ?_).symm
  · have r0 : iblk3 V c 0 t j = V c (Pipeline.arrRef spec3 0) (((cfg3.win 5).blk t).view.emb j) := by
      rw [← e0]; rfl
    have r1 : iblk3 V c 1 t j = V c (Pipeline.arrRef spec3 1) (((cfg3.win 5).blk t).view.emb j) := by
      rw [← e1]; rfl
    have r4 : iblk3 V c 4 t j = V c (Pipeline.arrRef spec3 4) (((cfg3.win 5).blk t).view.emb j) := by
      rw [← e4]; rfl
    rw [r0, r1, r4]
    rfl
  · show win3_2.index t (0 : Fin 2) * 5000 + 1 * (j 0).val = win3_5.index t (0 : Fin 2) * 5000 + 1 * (j 0).val
    omega
  · show win3_3.index t (1 : Fin 2) * 64 + 1 * (j 1).val = win3_5.index t (1 : Fin 2) * 64 + 1 * (j 1).val
    omega

/-- An index of the array is in point `t`'s block iff each coordinate is in the block's range on its axis. -/
theorem mem_block3 (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v74).slice (win3_5.rect t)).set ↔ _
  rw [View.set_slice_whole, Rect.mem_set_unit]
  exact Iff.rfl

/-- Row `r` lies in the block of point `r / 5000`. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : grid3.N = 20 := N_3
  let t : Fin cfg3.N := ⟨(i 0).val / 5000, by show _ < grid3.N; omega⟩
  have ht : t.val = (i 0).val / 5000 := rfl
  obtain ⟨-, -, -, -, -, -, -, -, -, -, a50, a51⟩ := index3 t
  refine ⟨t, flush3_5 t, ?_⟩
  rw [mem_block3]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 64 ≤ (i 1).val ∧ (i 1).val < win3_5.index t (1 : Fin 2) * 64 + 64
    omega

/-- Region 3 leaves in its output array the whole-array function of the arrays it finds, the residual array added. -/
theorem rows3 (c : Dev nD) :
    (dat3 V c).arrAt 5 cfg3.N
      = addf (Cert.GcnSpec.combine (V c (Pipeline.arrRef spec3 0)) (V c (Pipeline.arrRef spec3 1)) (V c (Pipeline.arrRef spec3 2)) (V c (Pipeline.arrRef spec3 3)))
          (V c (Pipeline.arrRef spec3 4)) :=
  (dat3 V c).arrAt_eq_of_cover 5 _ (fun t _ => flushed3 V c t) cover3

end Cert.KernelIdeal.CombineRows
end
-- ==== Proof.ClassifyRows.lean ====
/-
  What the last of the kernel's five regions leaves in its output array, as one whole-array function of the three
  arrays the region finds: node features `h : [100000, 64]`, weights `w : [64, 16]` and a bias row `b : [1, 16]`.

  Entry `(r, k)` of the result depends on row `r` of the features only. With the scores
      l(r, k) = ∑ j < 64, h(r, j) · w(j, k) + b(0, k)
  and `M(r)` the largest of the sixteen scores of row `r` (a fold of `max` started from minus infinity), it is
      (l(r, k) − M(r)) − log (∑ k' < 16, exp (l(r, k') − M(r))).
  The region computes this block by block, 5000 rows at each of its 20 grid points; the specification computes it
  on the whole array. Both are read at an index as that one formula: a matrix product into a zero accumulator and the
  host's product are the same sum over the features, a lane sum from zero and the host's sum from zero are the same
  sum over the classes, a lane maximum and the host's maximum are the same fold (the host's further maximum with minus
  infinity changes nothing: a fold of `max` is at least the value it starts from), and the exponential and the logarithm
  are one function on both sides. Then the 20 blocks, each the matching block of the specification, cover the array.
-/
import proofs.«165956_j55662776156458_2_alg».proof.Proof.Gen.KernelIdeal.Frame
import proofs.«165956_j55662776156458_2_alg».proof.Proof.Gen.ReferenceIdeal
import proofs.«165956_j55662776156458_2_alg».proof.Proof.GcnSpec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
noncomputable section
namespace Cert.KernelIdeal.ClassifyRows
open Idealize.ShloMosaic Idealize.ShloMosaic.TcCoe Idealize.SL.Sem
open Cert.KernelIdeal Cert.KernelIdeal.Gen
open Idealize.ShloMosaic.ValueIdx

/-! ## The arithmetic of one row

Every entry of the result depends on one row of the features only. For a row `H` of 64 features, weights `W` and a bias
row `B`, class `k` scores `∑ j, H j * W j k + B k`; the result at class `k` is the score minus the largest of the row's
sixteen scores, minus the logarithm of the sum over the classes of the exponentials of those differences. -/

/-- The score of a row `H` for class `k`. -/
def score (H : Fin 64 → EReal) (W : Fin 64 → Fin 16 → EReal) (B : Fin 16 → EReal) (k : Fin 16) : EReal :=
  (∑ j : Fin 64, H j * W j k) + B k

/-- The largest of sixteen scores, as the fold of `max` started from what the word `0xFF800000` denotes. -/
def top (L : Fin 16 → EReal) : EReal :=
  (Finset.univ : Finset (Fin 16)).fold max (Ideal.ofBits .f32 0xFF800000#32) L

/-- The logarithm of the softmax of sixteen scores, at class `k`. -/
def logSoftmaxAt (L : Fin 16 → EReal) (k : Fin 16) : EReal :=
  (L k - top L) - Ideal.log (∑ k' : Fin 16, Ideal.exp (L k' - top L))

/-! ## Layout operations on a column, read at an index -/

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The host's exponential and logarithm, read at an index -/

/-- The host's logarithm at an index is the logarithm of the element. -/
theorem hostLog_apply {s : Shape} {φ : FTy} (x : FVec Ideal s φ) (i : s.Idx) : Host.log x i = Ideal.log (x i) := rfl
/-- The host's exponential at an index is the exponential of the element. -/
theorem hostExp_apply {s : Shape} {φ : FTy} (x : FVec Ideal s φ) (i : s.Idx) : Host.exp x i = Ideal.exp (x i) := rfl

/-! ## The kernel's block at an index -/

/-- The matmul's left operand index on its row axis is the result's row. -/
theorem dotK_lhs0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide),
    dif_pos (show (0 : Fin S5000x64.rank) ∈ dot_S5000x64_S64x16_S5000x16_1_0_0_1_n_n.lhsNonContracting by decide)]
  rfl
/-- On its feature axis it is the summation index. -/
theorem dotK_lhs1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
/-- The right operand index on its feature axis is the summation index. -/
theorem dotK_rhs0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
/-- On its class axis it is the result's class. -/
theorem dotK_rhs1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide),
    dif_pos (show (1 : Fin S64x16.rank) ∈ dot_S5000x64_S64x16_S5000x16_1_0_0_1_n_n.rhsNonContracting by decide)]
  rfl

/-- The block's matrix product into a zero accumulator, at row `r` and class `k`: the sum over the 64 features. -/
theorem matmul_at {φ₁ φ₂ : FTy} (a : FVec Ideal S5000x64 φ₁) (w : FVec Ideal S64x16 φ₂) (r : Fin 5000) (k : Fin 16) :
    matmul dot_S5000x64_S64x16_S5000x16_1_0_0_1_n_n none a w (constant (F := Ideal) S5000x16 .f32 0x00000000#32) (ix2 r k)
      = ∑ j : Fin 64, a (ix2 r j) * w (ix2 j k) := by
  refine (Ideal.matmul_constant_zero_apply dot_S5000x64_S64x16_S5000x16_1_0_0_1_n_n none a w (ix2 r k)).trans ?_
  rw [← Equiv.sum_comp (ValueIdx.contrEquiv1 dot_S5000x64_S64x16_S5000x16_1_0_0_1_n_n 64 rfl rfl).symm]
  refine Finset.sum_congr rfl fun j _ => ?_
  have hj := ValueIdx.contrEquiv1_symm_val dot_S5000x64_S64x16_S5000x16_1_0_0_1_n_n 64 rfl rfl j
  have el : dot_S5000x64_S64x16_S5000x16_1_0_0_1_n_n.lhsIdx (ix2 r k)
      ((ValueIdx.contrEquiv1 dot_S5000x64_S64x16_S5000x16_1_0_0_1_n_n 64 rfl rfl).symm j) = ix2 r j :=
    funext fun a => Fin.ext (by
      match a with
      | ⟨0, _⟩ => exact dotK_lhs0 _ _
      | ⟨1, _⟩ => exact (dotK_lhs1 _ _).trans hj)
  have er : dot_S5000x64_S64x16_S5000x16_1_0_0_1_n_n.rhsIdx (ix2 r k)
      ((ValueIdx.contrEquiv1 dot_S5000x64_S64x16_S5000x16_1_0_0_1_n_n 64 rfl rfl).symm j) = ix2 j k :=
    funext fun a => Fin.ext (by
      match a with
      | ⟨0, _⟩ => exact (dotK_rhs0 _ _).trans hj
      | ⟨1, _⟩ => exact dotK_rhs1 _ _)
  rw [el, er]

/-- The index of the block over row `r` with class `k` put back on the reduced axis. -/
theorem lift_row (h : S5000x16.Reduces [1] S5000) (r : Fin 5000) (k : Fin 16) : h.lift (ix1 r) k = ix2 r k :=
  funext fun a => Fin.ext (by match a with | ⟨0, _⟩ => rfl | ⟨1, _⟩ => rfl)

/-- The block's sum over the classes, at row `r`. -/
theorem rowSum_at (src : FVec Ideal S5000x16 .f32) (h : S5000x16.Reduces [1] S5000) (hφ : FKind.Formats .f32)
    (hacc : (0x00000000#32 : BitVec 32) = FKind.add.neutral .f32 hφ) (r : Fin 5000) :
    multiReduction (F := Ideal) .add [1] S5000 src 0x00000000#32 h hφ hacc (ix1 r) = ∑ k : Fin 16, src (ix2 r k) := by
  refine (Ideal.multiReduction_add_single src _ h hφ hacc (ix1 r)).trans ?_
  exact Finset.sum_congr rfl fun k _ => congrArg src (lift_row h r k)

/-- The block's maximum over the classes, at row `r`. -/
theorem rowMax_at (src : FVec Ideal S5000x16 .f32) (h : S5000x16.Reduces [1] S5000) (hφ : FKind.Formats .f32)
    (hacc : (0xFF800000#32 : BitVec 32) = FKind.maximumf.neutral .f32 hφ) (r : Fin 5000) :
    multiReduction (F := Ideal) .maximumf [1] S5000 src 0xFF800000#32 h hφ hacc (ix1 r) = top fun k => src (ix2 r k) := by
  refine (Ideal.multiReduction_maximumf_single src _ h hφ hacc (ix1 r)).trans ?_
  have e : (src ∘ h.lift (ix1 r)) = fun k : Fin 16 => src (ix2 r k) := funext fun k => congrArg src (lift_row h r k)
  rw [e]
  rfl

/-- The block of scores at row `r` and class `k`: the casts to the same shape and the narrowing of the operands change
    nothing, the product is the sum over the features and the bias row is repeated down the rows. -/
theorem scores_at (x0 : FVec Ideal S5000x64 .f32) (x1 : FVec Ideal S64x16 .f32) (x2 : FVec Ideal S1x16 .f32)
    (h00 : S5000x64.ShapeCasts S5000x64) (h11 : S1x16.ShapeCasts S1x16) (hb : S1x16.Broadcasts S5000x16)
    (hlt : FTy.bf16.bits < FTy.f32.bits) (r : Fin 5000) (k : Fin 16) :
    addf (matmul dot_S5000x64_S64x16_S5000x16_1_0_0_1_n_n none (truncf .bf16 (shapeCast S5000x64 x0 h00) hlt)
        (truncf .bf16 x1 hlt) (constant (F := Ideal) S5000x16 .f32 0x00000000#32))
      (broadcastTo S5000x16 (shapeCast S1x16 x2 h11) hb) (ix2 r k)
      = score (fun j => x0 (ix2 r j)) (fun j k => x1 (ix2 j k)) (fun k => x2 (ix2 (0 : Fin 1) k)) k := by
  rw [shapeCast_self, shapeCast_self]
  refine (addf_apply _ _ _).trans ?_
  rw [matmul_at, broadcastTo_1b_ab_apply]
  rfl

/-- From a block `L` of scores to the block stored: at row `r` and class `k` the logarithm of the softmax of row `r`. -/
theorem logSoftmaxBlock_at (L : FVec Ideal S5000x16 .f32) (h : S5000x16.Reduces [1] S5000) (hφ : FKind.Formats .f32)
    (hmax : (0xFF800000#32 : BitVec 32) = FKind.maximumf.neutral .f32 hφ)
    (hadd : (0x00000000#32 : BitVec 32) = FKind.add.neutral .f32 hφ)
    (hsc : S5000.ShapeCasts S5000x1) (hbc : S5000x1.Broadcasts S5000x16) (r : Fin 5000) (k : Fin 16) :
    subf (subf L (broadcastTo S5000x16 (shapeCast S5000x1
          (multiReduction (F := Ideal) .maximumf [1] S5000 L 0xFF800000#32 h hφ hmax) hsc) hbc))
      (broadcastTo S5000x16 (log (shapeCast S5000x1 (multiReduction (F := Ideal) .add [1] S5000
        (exp (subf L (broadcastTo S5000x16 (shapeCast S5000x1
          (multiReduction (F := Ideal) .maximumf [1] S5000 L 0xFF800000#32 h hφ hmax) hsc) hbc)))
        0x00000000#32 h hφ hadd) hsc)) hbc) (ix2 r k)
      = logSoftmaxAt (fun k' => L (ix2 r k')) k := by
  have hs : ∀ k' : Fin 16, subf L (broadcastTo S5000x16 (shapeCast S5000x1
        (multiReduction (F := Ideal) .maximumf [1] S5000 L 0xFF800000#32 h hφ hmax) hsc) hbc) (ix2 r k')
      = L (ix2 r k') - top (fun k'' => L (ix2 r k'')) := fun k' => by
    refine (subf_apply _ _ _).trans ?_
    rw [broadcastTo_a1_ab_apply, shapeCast_a_a1_apply, rowMax_at]
  refine (subf_apply _ _ _).trans ?_
  rw [hs k, broadcastTo_a1_ab_apply]
  show _ - Ideal.log (shapeCast S5000x1 _ hsc (ix2 r (0 : Fin 1))) = _
  rw [shapeCast_a_a1_apply, rowSum_at]
  unfold logSoftmaxAt
  refine congrArg (fun z => _ - Ideal.log z) (Finset.sum_congr rfl fun k' _ => ?_)
  show Ideal.exp (subf L _ (ix2 r k')) = _
  rw [hs k']

/-- THE BLOCK THE BODY STORES, at row `r` of the block and class `k`, from the three blocks it loads. -/
theorem payload_at (x0 : FVec Ideal S5000x64 .f32) (x1 : FVec Ideal S64x16 .f32) (x2 : FVec Ideal S1x16 .f32)
    (r : Fin 5000) (k : Fin 16) :
    k4_pay1 (F := Ideal) x0 x1 x2 (ix2 r k)
      = logSoftmaxAt (score (fun j => x0 (ix2 r j)) (fun j k => x1 (ix2 j k)) (fun k => x2 (ix2 (0 : Fin 1) k))) k := by
  unfold k4_pay1
  refine (logSoftmaxBlock_at _ _ _ _ _ _ _ r k).trans ?_
  exact congrArg (fun L => logSoftmaxAt L k) (funext fun k' => scores_at x0 x1 x2 _ _ _ _ r k')

/-! ## The specification at an index -/

/-- The host product's left operand index on its row axis is the result's row. -/
theorem dotR_lhs0 (i : Cert.ReferenceIdeal.S100000x16.Idx)
    (q : Cert.ReferenceIdeal.dot_S100000x64_S64x16_S100000x16_1_0_0_1_n_n.contr.Idx) :
    (Cert.ReferenceIdeal.dot_S100000x64_S64x16_S100000x16_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x16_S100000x16_1_0_0_1_n_n.lhsBatch by decide),
    dif_pos (show (0 : Fin Cert.ReferenceIdeal.S100000x64.rank) ∈ Cert.ReferenceIdeal.dot_S100000x64_S64x16_S100000x16_1_0_0_1_n_n.lhsNonContracting by decide)]
  rfl
/-- On its feature axis it is the summation index. -/
theorem dotR_lhs1 (i : Cert.ReferenceIdeal.S100000x16.Idx)
    (q : Cert.ReferenceIdeal.dot_S100000x64_S64x16_S100000x16_1_0_0_1_n_n.contr.Idx) :
    (Cert.ReferenceIdeal.dot_S100000x64_S64x16_S100000x16_1_0_0_1_n_n.lhsIdx i q 1).val = (q ⟨0, by decide⟩).val :=
  Cert.ReferenceIdeal.dot_S100000x64_S64x16_S100000x16_1_0_0_1_n_n.lhsIdx_val_of_single rfl i q
/-- The right operand index on its feature axis is the summation index. -/
theorem dotR_rhs0 (i : Cert.ReferenceIdeal.S100000x16.Idx)
    (q : Cert.ReferenceIdeal.dot_S100000x64_S64x16_S100000x16_1_0_0_1_n_n.contr.Idx) :
    (Cert.ReferenceIdeal.dot_S100000x64_S64x16_S100000x16_1_0_0_1_n_n.rhsIdx i q 0).val = (q ⟨0, by decide⟩).val :=
  Cert.ReferenceIdeal.dot_S100000x64_S64x16_S100000x16_1_0_0_1_n_n.rhsIdx_val_of_single rfl i q
/-- On its class axis it is the result's class. -/
theorem dotR_rhs1 (i : Cert.ReferenceIdeal.S100000x16.Idx)
    (q : Cert.ReferenceIdeal.dot_S100000x64_S64x16_S100000x16_1_0_0_1_n_n.contr.Idx) :
    (Cert.ReferenceIdeal.dot_S100000x64_S64x16_S100000x16_1_0_0_1_n_n.rhsIdx i q 1).val = (i 1).val := by
  unfold DotDims.rhsIdx
  rw [dif_neg (show ¬(1 : Fin Cert.ReferenceIdeal.S64x16.rank) ∈ Cert.ReferenceIdeal.dot_S100000x64_S64x16_S100000x16_1_0_0_1_n_n.rhsBatch by decide),
    dif_pos (show (1 : Fin Cert.ReferenceIdeal.S64x16.rank) ∈ Cert.ReferenceIdeal.dot_S100000x64_S64x16_S100000x16_1_0_0_1_n_n.rhsNonContracting by decide)]
  rfl

/-- The whole-array product at row `r` and class `k`: the sum over the 64 features. -/
theorem dot_at (a : FVec Ideal Cert.ReferenceIdeal.S100000x64 .f32) (w : FVec Ideal Cert.ReferenceIdeal.S64x16 .f32)
    (r : Fin 100000) (k : Fin 16) :
    Host.dotGeneral Cert.ReferenceIdeal.dot_S100000x64_S64x16_S100000x16_1_0_0_1_n_n none a w (ix2 r k)
      = ∑ j : Fin 64, a (ix2 r j) * w (ix2 j k) := by
  refine (Ideal.dotGeneral_apply Cert.ReferenceIdeal.dot_S100000x64_S64x16_S100000x16_1_0_0_1_n_n none .single a w (ix2 r k)).trans ?_
  rw [← Equiv.sum_comp (ValueIdx.contrEquiv1 Cert.ReferenceIdeal.dot_S100000x64_S64x16_S100000x16_1_0_0_1_n_n 64 rfl rfl).symm]
  refine Finset.sum_congr rfl fun j _ => ?_
  have hj := ValueIdx.contrEquiv1_symm_val Cert.ReferenceIdeal.dot_S100000x64_S64x16_S100000x16_1_0_0_1_n_n 64 rfl rfl j
  have el : Cert.ReferenceIdeal.dot_S100000x64_S64x16_S100000x16_1_0_0_1_n_n.lhsIdx (ix2 r k)
      ((ValueIdx.contrEquiv1 Cert.ReferenceIdeal.dot_S100000x64_S64x16_S100000x16_1_0_0_1_n_n 64 rfl rfl).symm j) = ix2 r j :=
    funext fun a => Fin.ext (by
      match a with
      | ⟨0, _⟩ => exact dotR_lhs0 _ _
      | ⟨1, _⟩ => exact (dotR_lhs1 _ _).trans hj)
  have er : Cert.ReferenceIdeal.dot_S100000x64_S64x16_S100000x16_1_0_0_1_n_n.rhsIdx (ix2 r k)
      ((ValueIdx.contrEquiv1 Cert.ReferenceIdeal.dot_S100000x64_S64x16_S100000x16_1_0_0_1_n_n 64 rfl rfl).symm j) = ix2 j k :=
    funext fun a => Fin.ext (by
      match a with
      | ⟨0, _⟩ => exact (dotR_rhs0 _ _).trans hj
      | ⟨1, _⟩ => exact dotR_rhs1 _ _)
  rw [el, er]

/-- The whole-array index over row `r` with class `k` put back on the reduced axis. -/
theorem liftR_row (h : Cert.ReferenceIdeal.S100000x16.Reduces [1] Cert.ReferenceIdeal.S100000) (r : Fin 100000) (k : Fin 16) :
    h.lift (ix1 r) k = ix2 r k :=
  funext fun a => Fin.ext (by match a with | ⟨0, _⟩ => rfl | ⟨1, _⟩ => rfl)

/-- The host's maximum over the classes, at row `r`: the fold of `max` from the initial value over the row. -/
theorem hostRowMax_at (l : FVec Ideal Cert.ReferenceIdeal.S100000x16 .f32) (init : Cert.ReferenceIdeal.S_.Idx → Ideal .f32)
    (h' : Cert.ReferenceIdeal.S100000x16.ReducesTo [1] Cert.ReferenceIdeal.S100000) (hu : 0 < Cert.ReferenceIdeal.S_.numel)
    (r : Fin 100000) :
    Host.reduce FloatOps.maximumf l init h' hu (ix1 r)
      = (Finset.univ : Finset (Fin 16)).fold max (init (Shape.Idx.first hu)) fun k => l (ix2 r k) := by
  have h : Cert.ReferenceIdeal.S100000x16.Reduces [1] Cert.ReferenceIdeal.S100000 := by decide
  refine (Host.reduce_eq_fold_single FloatOps.maximumf l init h' h hu (ix1 r)).trans ?_
  have e : (l ∘ h.lift (ix1 r)) = fun k : Fin 16 => l (ix2 r k) := funext fun k => congrArg l (liftR_row h r k)
  rw [e]
  rfl

/-- The host's sum over the classes, at row `r`: the initial value plus the sum over the row. -/
theorem hostRowSum_at (x : FVec Ideal Cert.ReferenceIdeal.S100000x16 .f32) (init : Cert.ReferenceIdeal.S_.Idx → Ideal .f32)
    (h' : Cert.ReferenceIdeal.S100000x16.ReducesTo [1] Cert.ReferenceIdeal.S100000) (hu : 0 < Cert.ReferenceIdeal.S_.numel)
    (r : Fin 100000) :
    Host.reduceAdd (F := Ideal) x init h' hu (ix1 r) = init (Shape.Idx.first hu) + ∑ k : Fin 16, x (ix2 r k) := by
  have h : Cert.ReferenceIdeal.S100000x16.Reduces [1] Cert.ReferenceIdeal.S100000 := by decide
  unfold Host.reduceAdd
  rw [Ideal.hostReduceAdd_def]
  refine (Ideal.hostReduceAdd_single h' h x _ (ix1 r)).trans ?_
  exact congrArg (_ + ·) (Finset.sum_congr rfl fun k _ => congrArg x (liftR_row h r k))

/-- The scores minus their row maximum, at row `r` and class `k`. The further maximum with the constant the fold
    started from changes nothing: the fold is at least its starting value. -/
theorem shifted_at (l : FVec Ideal Cert.ReferenceIdeal.S100000x16 .f32) (r : Fin 100000) (k : Fin 16) :
    Cert.GcnSpec.shifted (F := Ideal) l (ix2 r k) = l (ix2 r k) - top fun k' => l (ix2 r k') := by
  unfold Cert.GcnSpec.shifted
  refine (subf_apply _ _ _).trans ?_
  refine congrArg (l (ix2 r k) - ·) ?_
  refine (broadcastInDim_apply _ _ _ (ix2 r k) (ix2 r (0 : Fin 1)) ?_).trans ?_
  · intro a; match a with | ⟨0, _⟩ => rfl | ⟨1, _⟩ => rfl
  refine (broadcastInDim_apply _ _ _ (ix2 r (0 : Fin 1)) (ix1 r) ?_).trans ?_
  · intro a; match a with | ⟨0, _⟩ => rfl
  refine (maximumf_apply _ _ _).trans ?_
  rw [hostRowMax_at]
  show max (Ideal.ofBits .f32 0xFF800000#32) ((Finset.univ : Finset (Fin 16)).fold max (Ideal.ofBits .f32 0xFF800000#32) _) = _
  exact max_eq_right ((Finset.le_fold_max _).mpr (Or.inl le_rfl))

/-- The logarithm of the row-wise softmax, at row `r` and class `k`. The host's sum starts from zero. -/
theorem logSoftmax_at (l : FVec Ideal Cert.ReferenceIdeal.S100000x16 .f32) (r : Fin 100000) (k : Fin 16) :
    Cert.GcnSpec.logSoftmax (F := Ideal) l (ix2 r k) = logSoftmaxAt (fun k' => l (ix2 r k')) k := by
  unfold Cert.GcnSpec.logSoftmax
  refine (subf_apply _ _ _).trans ?_
  rw [shifted_at]
  unfold logSoftmaxAt
  refine congrArg (fun z : EReal => (l (ix2 r k) - top fun k' => l (ix2 r k')) - z) ?_
  refine (broadcastInDim_apply _ _ _ (ix2 r k) (ix2 r (0 : Fin 1)) ?_).trans ?_
  · intro a; match a with | ⟨0, _⟩ => rfl | ⟨1, _⟩ => rfl
  refine (hostLog_apply _ _).trans ?_
  refine congrArg Ideal.log ?_
  refine (broadcastInDim_apply _ _ _ (ix2 r (0 : Fin 1)) (ix1 r) ?_).trans ?_
  · intro a; match a with | ⟨0, _⟩ => rfl
  refine (hostRowSum_at _ _ _ _ r).trans ?_
  show Ideal.ofBits .f32 0x00000000#32 + _ = _
  rw [Ideal.ofBits_zero_f32, zero_add]
  refine Finset.sum_congr rfl fun k' _ => ?_
  refine (hostExp_apply _ _).trans ?_
  rw [shifted_at]

/-- THE SPECIFICATION at row `r` and class `k`, from the three arrays. -/
theorem classify_at (o2 : FVec Ideal Cert.ReferenceIdeal.S100000x64 .f32) (x6 : FVec Ideal Cert.ReferenceIdeal.S64x16 .f32)
    (b : FVec Ideal Cert.ReferenceIdeal.S1x16 .f32) (r : Fin 100000) (k : Fin 16) :
    Cert.GcnSpec.classify (F := Ideal) o2 x6 b (ix2 r k)
      = logSoftmaxAt (score (fun j => o2 (ix2 r j)) (fun j k => x6 (ix2 j k)) (fun k => b (ix2 (0 : Fin 1) k))) k := by
  unfold Cert.GcnSpec.classify
  refine (logSoftmax_at _ r k).trans ?_
  refine congrArg (fun L => logSoftmaxAt L k) (funext fun k' => ?_)
  refine (addf_apply _ _ _).trans ?_
  unfold score
  rw [dot_at]
  refine congrArg (fun z : EReal => (∑ j : Fin 64, o2 (ix2 r j) * x6 (ix2 j k')) + z) ?_
  refine broadcastInDim_apply _ _ _ (ix2 r k') (ix2 (0 : Fin 1) k') ?_
  intro a; match a with | ⟨0, _⟩ => rfl | ⟨1, _⟩ => rfl

/-! ## From blocks to the array

Point `t` of the 20 works on rows `5000·t … 5000·t + 4999`: it reads that block of the features, the whole weights and
the whole bias row, and writes back that block of the result. The block it writes is the same block of the
specification, because an entry of the specification depends on its own row of the features only; the 20 blocks
cover the 100000 rows. -/

theorem zero_offsets : (![0, 0] : Fin 2 → Nat) = fun _ => 0 := funext fun a => by fin_cases a <;> rfl

/-- The printed index maps, decided over the grid: the features' and the result's block index is `(t, 0)`, the weights'
    and the bias row's `(0, 0)`. -/
theorem blockIdx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The stored block at `(r, k)` is the specification at `(R, k)` whenever the loaded blocks are: row `r` of the
    features' block row `R` of the features, the other two blocks the whole weights and the whole bias row. -/
theorem block_at (x0 : FVec Ideal S5000x64 .f32) (x1 : FVec Ideal S64x16 .f32) (x2 : FVec Ideal S1x16 .f32)
    (A0 : FVec Ideal Cert.ReferenceIdeal.S100000x64 .f32) (A1 : FVec Ideal Cert.ReferenceIdeal.S64x16 .f32)
    (A2 : FVec Ideal Cert.ReferenceIdeal.S1x16 .f32) (r : Fin 5000) (k : Fin 16) (R : Fin 100000)
    (h0 : ∀ j : Fin 64, x0 (ix2 r j) = A0 (ix2 R j)) (h1 : ∀ (j : Fin 64) (k : Fin 16), x1 (ix2 j k) = A1 (ix2 j k))
    (h2 : ∀ k : Fin 16, x2 (ix2 (0 : Fin 1) k) = A2 (ix2 (0 : Fin 1) k)) :
    k4_pay1 (F := Ideal) x0 x1 x2 (ix2 r k) = Cert.GcnSpec.classify (F := Ideal) A0 A1 A2 (ix2 R k) := by
  have e0 : (fun j => x0 (ix2 r j)) = fun j => A0 (ix2 R j) := funext h0
  have e1 : (fun j k => x1 (ix2 j k)) = fun j k => A1 (ix2 j k) := funext fun j => funext (h1 j)
  have e2 : (fun k => x2 (ix2 (0 : Fin 1) k)) = fun k => A2 (ix2 (0 : Fin 1) k) := funext h2
  rw [payload_at, classify_at, e0, e1, e2]

/-- The same over any index `y` of the block and `i` of the array with `i = (5000·q + y 0, y 1)`. -/
theorem block_eq (x0 : FVec Ideal S5000x64 .f32) (x1 : FVec Ideal S64x16 .f32) (x2 : FVec Ideal S1x16 .f32)
    (A0 : FVec Ideal Cert.ReferenceIdeal.S100000x64 .f32) (A1 : FVec Ideal Cert.ReferenceIdeal.S64x16 .f32)
    (A2 : FVec Ideal Cert.ReferenceIdeal.S1x16 .f32) (y : S5000x16.Idx) (i : Cert.ReferenceIdeal.S100000x16.Idx) (q : ℕ)
    (hi0 : (i 0).val = q * 5000 + (y 0).val) (hi1 : (i 1).val = (y 1).val)
    (h0 : ∀ (r : Fin 5000) (j : Fin 64) (R : Fin 100000), R.val = q * 5000 + r.val → x0 (ix2 r j) = A0 (ix2 R j))
    (h1 : ∀ (j : Fin 64) (k : Fin 16), x1 (ix2 j k) = A1 (ix2 j k))
    (h2 : ∀ k : Fin 16, x2 (ix2 (0 : Fin 1) k) = A2 (ix2 (0 : Fin 1) k)) :
    k4_pay1 (F := Ideal) x0 x1 x2 y = Cert.GcnSpec.classify (F := Ideal) A0 A1 A2 i := by
  obtain ⟨r, k, rfl⟩ : ∃ (r : Fin 5000) (k : Fin 16), y = ix2 r k := ⟨y 0, y 1, eq_ix2 y⟩
  obtain ⟨R, k', rfl⟩ : ∃ (R : Fin 100000) (k' : Fin 16), i = ix2 R k' := ⟨i 0, i 1, eq_ix2 i⟩
  obtain rfl : k' = k := Fin.ext hi1
  exact block_at x0 x1 x2 A0 A1 A2 r k' R (fun j => h0 r j R hi0) h1 h2

variable (V : (c : Dev nD) → (b : Ref sig .tc) → Buf (Elt Ideal) ((c : Thread nD τ).loc b))

/-- Row `r` of the features' block at point `t` is row `5000·t + r` of the features. -/
theorem features_block (c : Dev nD) (t : Fin cfg4.N) (r : Fin 5000) (j : Fin 64) (R : Fin 100000)
    (hR : R.val = t.val * 5000 + r.val) : iblk4 V c 0 t (ix2 r j) = V c (Pipeline.arrRef spec4 0) (ix2 R j) := by
  obtain ⟨e00, e01, -⟩ := blockIdx_facts t
  show V c (Pipeline.arrRef spec4 0) (((cfg4.win 0).blk t).view.emb (ix2 r j)) = V c (Pipeline.arrRef spec4 0) (ix2 R j)
  have h : ((cfg4.win 0).blk t).view.emb (ix2 r j) = ix2 R j := by
    funext a; apply Fin.ext
    match a with
    | ⟨0, _⟩ => show win4_0.index t (0 : Fin 2) * 5000 + 1 * r.val = R.val; omega
    | ⟨1, _⟩ => show win4_0.index t (1 : Fin 2) * 64 + 1 * j.val = j.val; omega
  rw [h]

/-- The weights' block at every point is the whole weights. -/
theorem weights_block (c : Dev nD) (t : Fin cfg4.N) (j : Fin 64) (k : Fin 16) :
    iblk4 V c 1 t (ix2 j k) = V c (Pipeline.arrRef spec4 1) (ix2 j k) := by
  obtain ⟨-, -, e10, e11, -⟩ := blockIdx_facts t
  show V c (Pipeline.arrRef spec4 1) (((cfg4.win 1).blk t).view.emb (ix2 j k)) = V c (Pipeline.arrRef spec4 1) (ix2 j k)
  have h : ((cfg4.win 1).blk t).view.emb (ix2 j k) = ix2 j k := by
    funext a; apply Fin.ext
    match a with
    | ⟨0, _⟩ => show win4_1.index t (0 : Fin 2) * 64 + 1 * j.val = j.val; omega
    | ⟨1, _⟩ => show win4_1.index t (1 : Fin 2) * 16 + 1 * k.val = k.val; omega
  rw [h]

/-- The bias row's block at every point is the whole bias row. -/
theorem bias_block (c : Dev nD) (t : Fin cfg4.N) (z : Fin 1) (k : Fin 16) :
    iblk4 V c 2 t (ix2 z k) = V c (Pipeline.arrRef spec4 2) (ix2 z k) := by
  obtain ⟨-, -, -, -, e20, e21, -⟩ := blockIdx_facts t
  show V c (Pipeline.arrRef spec4 2) (((cfg4.win 2).blk t).view.emb (ix2 z k)) = V c (Pipeline.arrRef spec4 2) (ix2 z k)
  have h : ((cfg4.win 2).blk t).view.emb (ix2 z k) = ix2 z k := by
    funext a; apply Fin.ext
    match a with
    | ⟨0, _⟩ => show win4_2.index t (0 : Fin 2) * 1 + 1 * z.val = z.val; omega
    | ⟨1, _⟩ => show win4_2.index t (1 : Fin 2) * 16 + 1 * k.val = k.val; omega
  rw [h]

/-- WHAT POINT `t` WRITES BACK is block `t` of the specification of the arrays as the region finds them. -/
theorem flushed_eq (c : Dev nD) (t : Fin cfg4.N) :
    (dat4 V c).flushed 3 t = ((cfg4.win 3).blk t).view.read (Elt Ideal)
      (Cert.GcnSpec.classify (F := Ideal) (V c (Pipeline.arrRef spec4 0)) (V c (Pipeline.arrRef spec4 1))
        (V c (Pipeline.arrRef spec4 2))) := by
  show (cfg4.win 3).cut (grid4.coords t) ((dat4 V c).after 3 t) = _
  rw [after4_3]
  unfold out4_3
  rw [View.canon_unit_zero zero_offsets]
  simp only [View.ld_unit_zero (S := S5000x64) zero_offsets, View.ld_unit_zero (S := S64x16) zero_offsets,
    View.ld_unit_zero (S := S1x16) zero_offsets]
  obtain ⟨-, -, -, -, -, -, e30, e31⟩ := blockIdx_facts t
  funext y
  show k4_pay1 (F := Ideal) (iblk4 V c 0 t) (iblk4 V c 1 t) (iblk4 V c 2 t) y
    = Cert.GcnSpec.classify (F := Ideal) (V c (Pipeline.arrRef spec4 0)) (V c (Pipeline.arrRef spec4 1))
        (V c (Pipeline.arrRef spec4 2)) (((cfg4.win 3).blk t).view.emb y)
  refine block_eq (iblk4 V c 0 t) (iblk4 V c 1 t) (iblk4 V c 2 t) (V c (Pipeline.arrRef spec4 0))
    (V c (Pipeline.arrRef spec4 1)) (V c (Pipeline.arrRef spec4 2)) y (((cfg4.win 3).blk t).view.emb y) t.val ?_ ?_
    (features_block V c t) (weights_block V c t) (bias_block V c t 0)
  · show win4_3.index t (0 : Fin 2) * 5000 + 1 * (y 0).val = t.val * 5000 + (y 0).val
    omega
  · show win4_3.index t (1 : Fin 2) * 16 + 1 * (y 1).val = (y 1).val
    omega

/-- An index of the result is in point `t`'s block iff each coordinate is in the block's range on its axis. -/
theorem mem_block (t : Fin cfg4.N) (i : S100000x16.Idx) :
    i ∈ ((cfg4.win 3).blk t).view.set ↔ ∀ a : Fin 2, win4_3.index t a * S5000x16.size a ≤ (i a).val
      ∧ (i a).val < win4_3.index t a * S5000x16.size a + S5000x16.size a := by
  show i ∈ ((View.whole main_v76).slice (win4_3.rect t)).set ↔ _
  rw [View.set_slice_whole, Rect.mem_set_unit]
  exact Iff.rfl

/-- Every index of the result is in the block of the point its row divided by 5000 names. -/
theorem covered (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hlt : (i 0).val / 5000 < cfg4.N := by
    show (i 0).val / 5000 < grid4.N
    rw [N_4]; omega
  obtain ⟨-, -, -, -, -, -, e30, e31⟩ := blockIdx_facts ⟨(i 0).val / 5000, hlt⟩
  have e30' : win4_3.index ⟨(i 0).val / 5000, hlt⟩ (0 : Fin 2) = (i 0).val / 5000 := e30
  refine ⟨⟨(i 0).val / 5000, hlt⟩, flush4_3 _, ?_⟩
  rw [mem_block]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    omega
  | ⟨1, _⟩ =>
    show win4_3.index ⟨(i 0).val / 5000, hlt⟩ (1 : Fin 2) * 16 ≤ (i 1).val
      ∧ (i 1).val < win4_3.index ⟨(i 0).val / 5000, hlt⟩ (1 : Fin 2) * 16 + 16
    omega

/-- THE RESULT ARRAY after the last region: the specification of the arrays the region finds. -/
theorem rows4 (c : Dev nD) :
    (dat4 V c).arrAt 3 cfg4.N
      = Cert.GcnSpec.classify (V c (Pipeline.arrRef spec4 0)) (V c (Pipeline.arrRef spec4 1)) (V c (Pipeline.arrRef spec4 2)) :=
  (dat4 V c).arrAt_eq_of_cover 3 _ (fun t _ => flushed_eq V c t) covered

end Cert.KernelIdeal.ClassifyRows
end
-- ==== Proof.LibUnitAxis.lean ====
/-
  A vector given a unit axis: reshaping `[a]` to the column `[a, 1]` or to the row `[1, a]` gives the same array as
  broadcasting it along the new axis. Both read, at `(i, 0)` respectively `(0, i)`, the vector's entry `i`: the reshape
  because the row-major positions agree, the broadcast because the new axis is not among the operand's. General in `a`
  and in the element type.
-/
import Idealize.ShloMosaic.Lib.Pipeline.Value
import Idealize.ShloMosaic.Lib.ValueIdx

namespace Cert.LibUnitAxis

open Idealize.ShloMosaic

variable {α : Type}

/-- The column: `reshape v : [a, 1]` is `broadcast_in_dim v, dims = [0]`. -/
theorem shapeCast_col_eq_broadcastInDim {a : ℕ} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ v h = broadcastInDim ⟨2, ![a, 1]⟩ (![0] : Fin 1 → Fin 2) h' v := by
  funext j
  have h1 : (j 1).val < 1 := (j 1).isLt
  have h0 : (j 0).val < a := (j 0).isLt
  rw [shapeCast_apply v h j (ValueIdx.ix1 ⟨(j 0).val, h0⟩) (by
      rw [Shape.rowMajor_val_one, Shape.rowMajor_val_two]
      show (j 0).val = (j 0).val * 1 + (j 1).val
      omega),
    broadcastInDim_apply (![0] : Fin 1 → Fin 2) h' v j (ValueIdx.ix1 ⟨(j 0).val, h0⟩) (by
      intro b
      fin_cases b
      show (j 0).val = if a = 1 then 0 else (j 0).val
      split
      · omega
      · rfl)]

/-- The row: `reshape v : [1, a]` is `broadcast_in_dim v, dims = [1]`. -/
theorem shapeCast_row_eq_broadcastInDim {a : ℕ} (v : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ v h = broadcastInDim ⟨2, ![1, a]⟩ (![1] : Fin 1 → Fin 2) h' v := by
  funext j
  have h0 : (j 0).val < 1 := (j 0).isLt
  have h1 : (j 1).val < a := (j 1).isLt
  rw [shapeCast_apply v h j (ValueIdx.ix1 ⟨(j 1).val, h1⟩) (by
      rw [Shape.rowMajor_val_one, Shape.rowMajor_val_two]
      show (j 1).val = (j 0).val * a + (j 1).val
      have : (j 0).val = 0 := by omega
      rw [this, Nat.zero_mul, Nat.zero_add]),
    broadcastInDim_apply (![1] : Fin 1 → Fin 2) h' v j (ValueIdx.ix1 ⟨(j 1).val, h1⟩) (by
      intro b
      fin_cases b
      show (j 1).val = if a = 1 then 0 else (j 1).val
      split
      · omega
      · rfl)]

end Cert.LibUnitAxis
-- ==== Proof.KernelValue.lean ====
/-
  The idealized kernel program's result as a function of its arguments.

  The buffer contents at the nine segment boundaries of @main are a fold from the launch memory: a stretch of host
  operations leaves each buffer it writes at the operations' value and every other buffer alone; a region leaves its
  output array at what its write-backs make of it — the matrix product, the combination, the classification of the
  arrays it found — and every other buffer alone. Walking the fold: the first stretch computes the graph's weights from
  the edge list; region 0 the first projection; the second stretch gathers and scatters it along the edges; region 1
  combines; region 2 projects again; the third stretch gathers and scatters again; region 3 combines and adds the first
  layer back; region 4 classifies. Where the kernel reshapes a vector to a column or a row the network broadcasts it
  along the new axis: the same arrays. So the result buffer ends at the network of the launch contents.
-/
import proofs.«165956_j55662776156458_2_alg».proof.Proof.Gen.KernelIdeal.Frame
import proofs.«165956_j55662776156458_2_alg».proof.Proof.Gen.ReferenceIdeal
import proofs.«165956_j55662776156458_2_alg».proof.Proof.GcnSpec
import proofs.«165956_j55662776156458_2_alg».proof.Proof.MatmulRows
import proofs.«165956_j55662776156458_2_alg».proof.Proof.CombineRows
import proofs.«165956_j55662776156458_2_alg».proof.Proof.ClassifyRows
import proofs.«165956_j55662776156458_2_alg».proof.Proof.LibUnitAxis
import Idealize.ShloMosaic.Lib.StableHlo.Run
import Idealize.ShloMosaic.PureOps.Ideal

set_option maxRecDepth 16384

noncomputable section

namespace Cert.KernelIdeal.ResultValue

open Idealize.ShloMosaic Idealize.ShloMosaic.TcCoe Idealize.SL.Sem Idealize.ShloMosaic.StableHlo
open Cert.KernelIdeal Cert.KernelIdeal.Gen Cert.GcnSpec

variable (m : (ℓ : Loc nD τ sig) → Buf (Elt Ideal) ℓ) (ρ : Dev nD → PrngReg) (c : Dev nD)

/-- A buffer none of a stretch's operations writes keeps its contents across the stretch. -/
local macro "stretch_keeps" : tactic => `(tactic|
  exact StableHlo.after_of_forall_not_mem _ _ (List.forall_iff_forall_mem.mp (by
    simp only [hostOps0, hostOps1, hostOps3, hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The launch contents, and the first stretch -/

/-- Argument 0 as launched. -/
abbrev in0 : (⟨S100000x64, .f32⟩ : BufTy).Contents (Elt Ideal) := m ((c : Thread nD τ).loc main_arg0)
/-- Argument 1 as launched. -/
abbrev in1 : (⟨S2x800000, .i32⟩ : BufTy).Contents (Elt Ideal) := m ((c : Thread nD τ).loc main_arg1)
/-- Argument 2 as launched. -/
abbrev in2 : (⟨S64x64, .f32⟩ : BufTy).Contents (Elt Ideal) := m ((c : Thread nD τ).loc main_arg2)
/-- Argument 3 as launched. -/
abbrev in3 : (⟨S64, .f32⟩ : BufTy).Contents (Elt Ideal) := m ((c : Thread nD τ).loc main_arg3)
/-- Argument 4 as launched. -/
abbrev in4 : (⟨S64x64, .f32⟩ : BufTy).Contents (Elt Ideal) := m ((c : Thread nD τ).loc main_arg4)
/-- Argument 5 as launched. -/
abbrev in5 : (⟨S64, .f32⟩ : BufTy).Contents (Elt Ideal) := m ((c : Thread nD τ).loc main_arg5)
/-- Argument 6 as launched. -/
abbrev in6 : (⟨S64x16, .f32⟩ : BufTy).Contents (Elt Ideal) := m ((c : Thread nD τ).loc main_arg6)
/-- Argument 7 as launched. -/
abbrev in7 : (⟨S16, .f32⟩ : BufTy).Contents (Elt Ideal) := m ((c : Thread nD τ).loc main_arg7)

/-- Features times a 64 × 64 weight matrix. -/
abbrev project (x : (⟨S100000x64, .f32⟩ : BufTy).Contents (Elt Ideal)) (w : (⟨S64x64, .f32⟩ : BufTy).Contents (Elt Ideal)) :
    (⟨S100000x64, .f32⟩ : BufTy).Contents (Elt Ideal) :=
  Host.dotGeneral (F := Ideal) (φ₁ := .f32) (φ₂ := .f32) Cert.ReferenceIdeal.dot_S100000x64_S64x64_S100000x64_1_0_0_1_n_n none x w

theorem entry_arg0 : W1 m ρ c (Proc.devRef .tc main_arg0) = in0 m c :=
  (show W1 m ρ c (Proc.devRef .tc main_arg0) = W0 m ρ c (Proc.devRef .tc main_arg0) by stretch_keeps).trans rfl
theorem entry_arg2 : W1 m ρ c (Proc.devRef .tc main_arg2) = in2 m c :=
  (show W1 m ρ c (Proc.devRef .tc main_arg2) = W0 m ρ c (Proc.devRef .tc main_arg2) by stretch_keeps).trans rfl
theorem entry_arg3 : W1 m ρ c (Proc.devRef .tc main_arg3) = in3 m c :=
  (show W1 m ρ c (Proc.devRef .tc main_arg3) = W0 m ρ c (Proc.devRef .tc main_arg3) by stretch_keeps).trans rfl
theorem entry_arg4 : W1 m ρ c (Proc.devRef .tc main_arg4) = in4 m c :=
  (show W1 m ρ c (Proc.devRef .tc main_arg4) = W0 m ρ c (Proc.devRef .tc main_arg4) by stretch_keeps).trans rfl
theorem entry_arg5 : W1 m ρ c (Proc.devRef .tc main_arg5) = in5 m c :=
  (show W1 m ρ c (Proc.devRef .tc main_arg5) = W0 m ρ c (Proc.devRef .tc main_arg5) by stretch_keeps).trans rfl
theorem entry_arg6 : W1 m ρ c (Proc.devRef .tc main_arg6) = in6 m c :=
  (show W1 m ρ c (Proc.devRef .tc main_arg6) = W0 m ρ c (Proc.devRef .tc main_arg6) by stretch_keeps).trans rfl
theorem entry_arg7 : W1 m ρ c (Proc.devRef .tc main_arg7) = in7 m c :=
  (show W1 m ρ c (Proc.devRef .tc main_arg7) = W0 m ρ c (Proc.devRef .tc main_arg7) by stretch_keeps).trans rfl

/-- The edges' sources after the first stretch. -/
theorem first_src : W1 m ρ c (Proc.devRef .tc main_v1) = srcRow (in1 m c) := by
  show StableHlo.after hostOps0 (W0 m ρ c) (Proc.devRef .tc main_v1) = _
  dsimp only [hostOps0]
  after_results_simp
  rfl

/-- The edges' destinations after the first stretch. -/
theorem first_dst : W1 m ρ c (Proc.devRef .tc main_v3) = dstRow (in1 m c) := by
  show StableHlo.after hostOps0 (W0 m ρ c) (Proc.devRef .tc main_v3) = _
  dsimp only [hostOps0]
  after_results_simp
  rfl

/-- The edge weights after the first stretch, as a column. -/
theorem first_edgeWeight : W1 m ρ c (Proc.devRef .tc main_v32)
    = shapeCast S800000x1 (edgeWeight (in1 m c)) shapeCasts_S800000_S800000x1 := by
  show StableHlo.after hostOps0 (W0 m ρ c) (Proc.devRef .tc main_v32) = _
  dsimp only [hostOps0]
  after_results_simp
  rfl

/-- The self weights after the first stretch, as a column. -/
theorem first_selfWeight : W1 m ρ c (Proc.devRef .tc main_v34)
    = shapeCast S100000x1 (selfWeight (in1 m c)) shapeCasts_S100000_S100000x1 := by
  show StableHlo.after hostOps0 (W0 m ρ c) (Proc.devRef .tc main_v34) = _
  dsimp only [hostOps0]
  after_results_simp
  rfl

/-! ## Region 0: the first projection -/

theorem proj1 : W2 m ρ c (Proc.devRef .tc main_v35)
    = project (in0 m c) (in2 m c) := by
  refine (W2_arr m ρ c 2).trans ((Cert.KernelIdeal.MatmulRows.rows0 (V1 m ρ) c).trans ?_)
  show project (W1 m ρ c (Proc.devRef .tc main_arg0)) (W1 m ρ c (Proc.devRef .tc main_arg2)) = _
  rw [entry_arg0, entry_arg2]

/-! ## Across region 0, the second stretch, region 1: the first layer -/

theorem r2_src : W2 m ρ c (Proc.devRef .tc main_v1) = srcRow (in1 m c) :=
  (W2_of_ne m ρ c main_v1 (by decide)).trans (first_src m ρ c)
theorem r2_dst : W2 m ρ c (Proc.devRef .tc main_v3) = dstRow (in1 m c) :=
  (W2_of_ne m ρ c main_v3 (by decide)).trans (first_dst m ρ c)
theorem r2_edgeWeight : W2 m ρ c (Proc.devRef .tc main_v32) = (shapeCast S800000x1 (edgeWeight (in1 m c)) shapeCasts_S800000_S800000x1) :=
  (W2_of_ne m ρ c main_v32 (by decide)).trans (first_edgeWeight m ρ c)
theorem r2_selfWeight : W2 m ρ c (Proc.devRef .tc main_v34) = (shapeCast S100000x1 (selfWeight (in1 m c)) shapeCasts_S100000_S100000x1) :=
  (W2_of_ne m ρ c main_v34 (by decide)).trans (first_selfWeight m ρ c)
theorem r2_arg3 : W2 m ρ c (Proc.devRef .tc main_arg3) = (in3 m c) :=
  (W2_of_ne m ρ c main_arg3 (by decide)).trans (entry_arg3 m ρ c)
theorem r2_arg4 : W2 m ρ c (Proc.devRef .tc main_arg4) = (in4 m c) :=
  (W2_of_ne m ρ c main_arg4 (by decide)).trans (entry_arg4 m ρ c)
theorem r2_arg5 : W2 m ρ c (Proc.devRef .tc main_arg5) = (in5 m c) :=
  (W2_of_ne m ρ c main_arg5 (by decide)).trans (entry_arg5 m ρ c)
theorem r2_arg6 : W2 m ρ c (Proc.devRef .tc main_arg6) = (in6 m c) :=
  (W2_of_ne m ρ c main_arg6 (by decide)).trans (entry_arg6 m ρ c)
theorem r2_arg7 : W2 m ρ c (Proc.devRef .tc main_arg7) = (in7 m c) :=
  (W2_of_ne m ρ c main_arg7 (by decide)).trans (entry_arg7 m ρ c)

/-- The neighbours' part of the first convolution, with the edge weights still in the kernel's column form. -/
theorem second_agg : W3 m ρ c (Proc.devRef .tc main_v52) = aggregate (project (in0 m c) (in2 m c)) (in1 m c) (broadcastInDim S800000x64 ![0, 1] bcast_S800000x1_S800000x64_0_1 (shapeCast S800000x1 (edgeWeight (in1 m c)) shapeCasts_S800000_S800000x1)) := by
  show StableHlo.after hostOps1 (W2 m ρ c) (Proc.devRef .tc main_v52) = _
  dsimp only [hostOps1]
  after_results_simp
  rw [r2_src, r2_dst, r2_edgeWeight, proj1]
  rfl

theorem second_bias : W3 m ρ c (Proc.devRef .tc main_v53) = shapeCast S1x64 (in3 m c) shapeCasts_S64_S1x64 := by
  show StableHlo.after hostOps1 (W2 m ρ c) (Proc.devRef .tc main_v53) = _
  dsimp only [hostOps1]
  after_results_simp
  rw [r2_arg3]
  rfl

theorem s3_proj1 : W3 m ρ c (Proc.devRef .tc main_v35) = (project (in0 m c) (in2 m c)) :=
  (show W3 m ρ c (Proc.devRef .tc main_v35) = W2 m ρ c (Proc.devRef .tc main_v35) by stretch_keeps).trans (proj1 m ρ c)
theorem s3_src : W3 m ρ c (Proc.devRef .tc main_v1) = srcRow (in1 m c) :=
  (show W3 m ρ c (Proc.devRef .tc main_v1) = W2 m ρ c (Proc.devRef .tc main_v1) by stretch_keeps).trans (r2_src m ρ c)
theorem s3_dst : W3 m ρ c (Proc.devRef .tc main_v3) = dstRow (in1 m c) :=
  (show W3 m ρ c (Proc.devRef .tc main_v3) = W2 m ρ c (Proc.devRef .tc main_v3) by stretch_keeps).trans (r2_dst m ρ c)
theorem s3_edgeWeight : W3 m ρ c (Proc.devRef .tc main_v32) = (shapeCast S800000x1 (edgeWeight (in1 m c)) shapeCasts_S800000_S800000x1) :=
  (show W3 m ρ c (Proc.devRef .tc main_v32) = W2 m ρ c (Proc.devRef .tc main_v32) by stretch_keeps).trans (r2_edgeWeight m ρ c)
theorem s3_selfWeight : W3 m ρ c (Proc.devRef .tc main_v34) = (shapeCast S100000x1 (selfWeight (in1 m c)) shapeCasts_S100000_S100000x1) :=
  (show W3 m ρ c (Proc.devRef .tc main_v34) = W2 m ρ c (Proc.devRef .tc main_v34) by stretch_keeps).trans (r2_selfWeight m ρ c)
theorem s3_arg4 : W3 m ρ c (Proc.devRef .tc main_arg4) = (in4 m c) :=
  (show W3 m ρ c (Proc.devRef .tc main_arg4) = W2 m ρ c (Proc.devRef .tc main_arg4) by stretch_keeps).trans (r2_arg4 m ρ c)
theorem s3_arg5 : W3 m ρ c (Proc.devRef .tc main_arg5) = (in5 m c) :=
  (show W3 m ρ c (Proc.devRef .tc main_arg5) = W2 m ρ c (Proc.devRef .tc main_arg5) by stretch_keeps).trans (r2_arg5 m ρ c)
theorem s3_arg6 : W3 m ρ c (Proc.devRef .tc main_arg6) = (in6 m c) :=
  (show W3 m ρ c (Proc.devRef .tc main_arg6) = W2 m ρ c (Proc.devRef .tc main_arg6) by stretch_keeps).trans (r2_arg6 m ρ c)
theorem s3_arg7 : W3 m ρ c (Proc.devRef .tc main_arg7) = (in7 m c) :=
  (show W3 m ρ c (Proc.devRef .tc main_arg7) = W2 m ρ c (Proc.devRef .tc main_arg7) by stretch_keeps).trans (r2_arg7 m ρ c)

/-- Region 1 leaves the first layer in its output array. -/
theorem out1 : W4 m ρ c (Proc.devRef .tc main_v54) = (layer1 (in0 m c) (in1 m c) (in2 m c) (in3 m c)) := by
  refine (W4_arr m ρ c 4).trans ((Cert.KernelIdeal.CombineRows.rows1 (V3 m ρ) c).trans ?_)
  show combine (W3 m ρ c (Proc.devRef .tc main_v52)) (W3 m ρ c (Proc.devRef .tc main_v35)) (W3 m ρ c (Proc.devRef .tc main_v34)) (W3 m ρ c (Proc.devRef .tc main_v53)) = _
  rw [second_agg, s3_proj1, s3_selfWeight, second_bias]
  have e1 : (shapeCast S800000x1 (edgeWeight (in1 m c)) shapeCasts_S800000_S800000x1) = broadcastInDim S800000x1 ![0] bcast_S800000_S800000x1_0 (edgeWeight (in1 m c)) :=
    Cert.LibUnitAxis.shapeCast_col_eq_broadcastInDim _ _ _
  have e2 : (shapeCast S100000x1 (selfWeight (in1 m c)) shapeCasts_S100000_S100000x1) = broadcastInDim S100000x1 ![0] Cert.ReferenceIdeal.Facts₀.bcast_S100000_S100000x1_0 (selfWeight (in1 m c)) :=
    Cert.LibUnitAxis.shapeCast_col_eq_broadcastInDim _ _ _
  have e3 : shapeCast S1x64 (in3 m c) shapeCasts_S64_S1x64 = broadcastInDim S1x64 ![1] Cert.ReferenceIdeal.Facts₀.bcast_S64_S1x64_1 (in3 m c) :=
    Cert.LibUnitAxis.shapeCast_row_eq_broadcastInDim _ _ _
  rw [e1, e2, e3]
  rfl

/-! ## Region 2, the third stretch, region 3: the second layer -/

theorem r4_src : W4 m ρ c (Proc.devRef .tc main_v1) = srcRow (in1 m c) :=
  (W4_of_ne m ρ c main_v1 (by decide)).trans (s3_src m ρ c)
theorem r4_dst : W4 m ρ c (Proc.devRef .tc main_v3) = dstRow (in1 m c) :=
  (W4_of_ne m ρ c main_v3 (by decide)).trans (s3_dst m ρ c)
theorem r4_edgeWeight : W4 m ρ c (Proc.devRef .tc main_v32) = (shapeCast S800000x1 (edgeWeight (in1 m c)) shapeCasts_S800000_S800000x1) :=
  (W4_of_ne m ρ c main_v32 (by decide)).trans (s3_edgeWeight m ρ c)
/-- Region 1 reads the self weights through an input window and leaves them in place. -/
theorem r4_selfWeight : W4 m ρ c (Proc.devRef .tc main_v34) = (shapeCast S100000x1 (selfWeight (in1 m c)) shapeCasts_S100000_S100000x1) :=
  ((W4_arr m ρ c 2).trans (((dat1 (V3 m ρ) c).arrAt_in 2 rfl _).trans (A_eq1 (V3 m ρ) c 2))).trans (s3_selfWeight m ρ c)
theorem r4_arg4 : W4 m ρ c (Proc.devRef .tc main_arg4) = (in4 m c) :=
  (W4_of_ne m ρ c main_arg4 (by decide)).trans (s3_arg4 m ρ c)
theorem r4_arg5 : W4 m ρ c (Proc.devRef .tc main_arg5) = (in5 m c) :=
  (W4_of_ne m ρ c main_arg5 (by decide)).trans (s3_arg5 m ρ c)
theorem r4_arg6 : W4 m ρ c (Proc.devRef .tc main_arg6) = (in6 m c) :=
  (W4_of_ne m ρ c main_arg6 (by decide)).trans (s3_arg6 m ρ c)
theorem r4_arg7 : W4 m ρ c (Proc.devRef .tc main_arg7) = (in7 m c) :=
  (W4_of_ne m ρ c main_arg7 (by decide)).trans (s3_arg7 m ρ c)

theorem proj2 : W5 m ρ c (Proc.devRef .tc main_v55) = (project (layer1 (in0 m c) (in1 m c) (in2 m c) (in3 m c)) (in4 m c)) := by
  refine (W5_arr m ρ c 2).trans ((Cert.KernelIdeal.MatmulRows.rows2 (V4 m ρ) c).trans ?_)
  show project (W4 m ρ c (Proc.devRef .tc main_v54)) (W4 m ρ c (Proc.devRef .tc main_arg4)) = _
  rw [out1, r4_arg4]

/-- Region 2 reads the first layer through an input window and leaves it in place. -/
theorem r5_out1 : W5 m ρ c (Proc.devRef .tc main_v54) = (layer1 (in0 m c) (in1 m c) (in2 m c) (in3 m c)) :=
  ((W5_arr m ρ c 0).trans (((dat2 (V4 m ρ) c).arrAt_in 0 rfl _).trans (A_eq2 (V4 m ρ) c 0))).trans (out1 m ρ c)
theorem r5_src : W5 m ρ c (Proc.devRef .tc main_v1) = srcRow (in1 m c) :=
  (W5_of_ne m ρ c main_v1 (by decide)).trans (r4_src m ρ c)
theorem r5_dst : W5 m ρ c (Proc.devRef .tc main_v3) = dstRow (in1 m c) :=
  (W5_of_ne m ρ c main_v3 (by decide)).trans (r4_dst m ρ c)
theorem r5_edgeWeight : W5 m ρ c (Proc.devRef .tc main_v32) = (shapeCast S800000x1 (edgeWeight (in1 m c)) shapeCasts_S800000_S800000x1) :=
  (W5_of_ne m ρ c main_v32 (by decide)).trans (r4_edgeWeight m ρ c)
theorem r5_selfWeight : W5 m ρ c (Proc.devRef .tc main_v34) = (shapeCast S100000x1 (selfWeight (in1 m c)) shapeCasts_S100000_S100000x1) :=
  (W5_of_ne m ρ c main_v34 (by decide)).trans (r4_selfWeight m ρ c)
theorem r5_arg5 : W5 m ρ c (Proc.devRef .tc main_arg5) = (in5 m c) :=
  (W5_of_ne m ρ c main_arg5 (by decide)).trans (r4_arg5 m ρ c)
theorem r5_arg6 : W5 m ρ c (Proc.devRef .tc main_arg6) = (in6 m c) :=
  (W5_of_ne m ρ c main_arg6 (by decide)).trans (r4_arg6 m ρ c)
theorem r5_arg7 : W5 m ρ c (Proc.devRef .tc main_arg7) = (in7 m c) :=
  (W5_of_ne m ρ c main_arg7 (by decide)).trans (r4_arg7 m ρ c)

theorem third_agg : W6 m ρ c (Proc.devRef .tc main_v72) = aggregate (project (layer1 (in0 m c) (in1 m c) (in2 m c) (in3 m c)) (in4 m c)) (in1 m c) (broadcastInDim S800000x64 ![0, 1] bcast_S800000x1_S800000x64_0_1 (shapeCast S800000x1 (edgeWeight (in1 m c)) shapeCasts_S800000_S800000x1)) := by
  show StableHlo.after hostOps3 (W5 m ρ c) (Proc.devRef .tc main_v72) = _
  dsimp only [hostOps3]
  after_results_simp
  rw [r5_src, r5_dst, r5_edgeWeight, proj2]
  rfl

theorem third_bias : W6 m ρ c (Proc.devRef .tc main_v73) = shapeCast S1x64 (in5 m c) shapeCasts_S64_S1x64 := by
  show StableHlo.after hostOps3 (W5 m ρ c) (Proc.devRef .tc main_v73) = _
  dsimp only [hostOps3]
  after_results_simp
  rw [r5_arg5]
  rfl

theorem s6_proj2 : W6 m ρ c (Proc.devRef .tc main_v55) = (project (layer1 (in0 m c) (in1 m c) (in2 m c) (in3 m c)) (in4 m c)) :=
  (show W6 m ρ c (Proc.devRef .tc main_v55) = W5 m ρ c (Proc.devRef .tc main_v55) by stretch_keeps).trans (proj2 m ρ c)
theorem s6_out1 : W6 m ρ c (Proc.devRef .tc main_v54) = (layer1 (in0 m c) (in1 m c) (in2 m c) (in3 m c)) :=
  (show W6 m ρ c (Proc.devRef .tc main_v54) = W5 m ρ c (Proc.devRef .tc main_v54) by stretch_keeps).trans (r5_out1 m ρ c)
theorem s6_selfWeight : W6 m ρ c (Proc.devRef .tc main_v34) = (shapeCast S100000x1 (selfWeight (in1 m c)) shapeCasts_S100000_S100000x1) :=
  (show W6 m ρ c (Proc.devRef .tc main_v34) = W5 m ρ c (Proc.devRef .tc main_v34) by stretch_keeps).trans (r5_selfWeight m ρ c)
theorem s6_arg6 : W6 m ρ c (Proc.devRef .tc main_arg6) = (in6 m c) :=
  (show W6 m ρ c (Proc.devRef .tc main_arg6) = W5 m ρ c (Proc.devRef .tc main_arg6) by stretch_keeps).trans (r5_arg6 m ρ c)
theorem s6_arg7 : W6 m ρ c (Proc.devRef .tc main_arg7) = (in7 m c) :=
  (show W6 m ρ c (Proc.devRef .tc main_arg7) = W5 m ρ c (Proc.devRef .tc main_arg7) by stretch_keeps).trans (r5_arg7 m ρ c)

/-- Region 3 leaves the second layer in its output array. -/
theorem out2 : W7 m ρ c (Proc.devRef .tc main_v74) = (layer2 (layer1 (in0 m c) (in1 m c) (in2 m c) (in3 m c)) (in1 m c) (in4 m c) (in5 m c)) := by
  refine (W7_arr m ρ c 5).trans ((Cert.KernelIdeal.CombineRows.rows3 (V6 m ρ) c).trans ?_)
  show addf (combine (W6 m ρ c (Proc.devRef .tc main_v72)) (W6 m ρ c (Proc.devRef .tc main_v55)) (W6 m ρ c (Proc.devRef .tc main_v34)) (W6 m ρ c (Proc.devRef .tc main_v73)))
      (W6 m ρ c (Proc.devRef .tc main_v54)) = _
  rw [third_agg, s6_proj2, s6_selfWeight, third_bias, s6_out1]
  have e1 : (shapeCast S800000x1 (edgeWeight (in1 m c)) shapeCasts_S800000_S800000x1) = broadcastInDim S800000x1 ![0] bcast_S800000_S800000x1_0 (edgeWeight (in1 m c)) :=
    Cert.LibUnitAxis.shapeCast_col_eq_broadcastInDim _ _ _
  have e2 : (shapeCast S100000x1 (selfWeight (in1 m c)) shapeCasts_S100000_S100000x1) = broadcastInDim S100000x1 ![0] Cert.ReferenceIdeal.Facts₀.bcast_S100000_S100000x1_0 (selfWeight (in1 m c)) :=
    Cert.LibUnitAxis.shapeCast_col_eq_broadcastInDim _ _ _
  have e3 : shapeCast S1x64 (in5 m c) shapeCasts_S64_S1x64 = broadcastInDim S1x64 ![1] Cert.ReferenceIdeal.Facts₀.bcast_S64_S1x64_1 (in5 m c) :=
    Cert.LibUnitAxis.shapeCast_row_eq_broadcastInDim _ _ _
  rw [e1, e2, e3]
  rfl

/-! ## The last stretch and region 4: the classification -/

theorem r7_arg6 : W7 m ρ c (Proc.devRef .tc main_arg6) = (in6 m c) :=
  (W7_of_ne m ρ c main_arg6 (by decide)).trans (s6_arg6 m ρ c)
theorem r7_arg7 : W7 m ρ c (Proc.devRef .tc main_arg7) = (in7 m c) :=
  (W7_of_ne m ρ c main_arg7 (by decide)).trans (s6_arg7 m ρ c)

theorem last_bias : W8 m ρ c (Proc.devRef .tc main_v75) = shapeCast S1x16 (in7 m c) shapeCasts_S16_S1x16 := by
  show StableHlo.after hostOps4 (W7 m ρ c) (Proc.devRef .tc main_v75) = _
  dsimp only [hostOps4]
  after_results_simp
  rw [r7_arg7]
  rfl

theorem s8_out2 : W8 m ρ c (Proc.devRef .tc main_v74) = (layer2 (layer1 (in0 m c) (in1 m c) (in2 m c) (in3 m c)) (in1 m c) (in4 m c) (in5 m c)) :=
  (show W8 m ρ c (Proc.devRef .tc main_v74) = W7 m ρ c (Proc.devRef .tc main_v74) by stretch_keeps).trans (out2 m ρ c)
theorem s8_arg6 : W8 m ρ c (Proc.devRef .tc main_arg6) = (in6 m c) :=
  (show W8 m ρ c (Proc.devRef .tc main_arg6) = W7 m ρ c (Proc.devRef .tc main_arg6) by stretch_keeps).trans (r7_arg6 m ρ c)

/-- The result buffer after the last region: the network of the launch contents. -/
theorem result : W9 m ρ c (Proc.devRef .tc main_v76)
    = network (in0 m c) (in1 m c) (in2 m c) (in3 m c) (in4 m c) (in5 m c) (in6 m c) (in7 m c) := by
  refine (W9_arr m ρ c 3).trans ((Cert.KernelIdeal.ClassifyRows.rows4 (V8 m ρ) c).trans ?_)
  show classify (W8 m ρ c (Proc.devRef .tc main_v74)) (W8 m ρ c (Proc.devRef .tc main_arg6)) (W8 m ρ c (Proc.devRef .tc main_v75)) = _
  rw [s8_out2, s8_arg6, last_bias]
  have e : shapeCast S1x16 (in7 m c) shapeCasts_S16_S1x16 = broadcastInDim S1x16 ![1] Cert.ReferenceIdeal.Facts₀.bcast_S16_S1x16_1 (in7 m c) :=
    Cert.LibUnitAxis.shapeCast_row_eq_broadcastInDim _ _ _
  rw [e]
  rfl

end Cert.KernelIdeal.ResultValue

end
-- ==== Proof.RefRun.lean ====
/-
  The reference program's run, read back as the graph convolution network.

  The reference's @main is a straight line of 170 whole-array operations. Every weakly fair execution of it ends with
  each buffer at the fold of the operations' results over the launch contents. Here that fold is evaluated at the
  result buffer: it is `Cert.GcnSpec.network` of the eight argument arrays, and the argument buffers, which no
  operation writes, keep what they held.

  The line is read in three stretches, each against an arbitrary entry valuation:
    * the first 77 operations end with the two rows of the edge list in their buffers and the first layer's output
      in its buffer, as functions of the arguments;
    * the next 74 compute the second layer from the first layer's output, the two edge rows and two arguments,
      all read from buffers the stretch does not write;
    * the last 19 compute the class scores and the logarithm of their softmax from the second layer's output.
  Reading a stretch against a valuation of which only a few values are known keeps every term as small as the
  stretch: the first layer's output enters the second stretch as one name, not as its own expansion repeated at each
  of its uses. Degrees, index normalisation and edge weights, which the program computes again in the second layer
  with the same operations, are the same terms as in the first.
-/
import proofs.«165956_j55662776156458_2_alg».proof.Proof.RefRunP
import proofs.«165956_j55662776156458_2_alg».proof.Proof.GcnSpec
import proofs.«165956_j55662776156458_2_alg».proof.Proof.Gen.ReferenceIdeal
import Idealize.ShloMosaic.Lib.StableHlo.Run
import Idealize.ShloMosaic.PureOps.Ideal

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-! ## Cutting a line of operations -/

/-- The contents after two lines run one after the other: the second line's fold over the first's. -/
theorem after_append (A B : List (HloOp τ sig (Elt F))) (V : Valuation τ sig (Elt F)) :
    after (A ++ B) V = after B (after A V) := by
  induction A generalizing V with
  | nil => rfl
  | cons op A ih => simp only [List.cons_append, after_cons, ih]

/-- A line cut after its first `k` operations. -/
theorem after_cut (k : Nat) (l : List (HloOp τ sig (Elt F))) (V : Valuation τ sig (Elt F)) :
    after l V = after (l.drop k) (after (l.take k) V) := by
  rw [← after_append, List.take_append_drop]

/-- Contents carried to a typed reference's buffer and read back are the contents. -/
theorem ofBuf_toBuf {T : BufTy} (x : TRef sig T) (v : T.Contents (Elt F)) : x.ofBuf (x.toBuf v) = v := by
  obtain ⟨r, h, h2, h3⟩ := x
  subst h
  rfl

/-! ## The first stretch: operations 1–77, up to the first layer's output -/

set_option maxHeartbeats 4000000 in
/-- Row 0 of the edge list, flattened. -/
theorem first_src (V : Valuation τ sig (Elt F)) :
    after (List.take 77 (ops (F := F))) V (Proc.devRef .tc main_v1) = Cert.GcnSpec.srcRow (V (Proc.devRef .tc main_arg1)) := by
  simp only [ops, List.take_succ_cons, List.take_zero]
  after_results_simp
  rfl

set_option maxHeartbeats 4000000 in
/-- Row 1 of the edge list, flattened. -/
theorem first_dst (V : Valuation τ sig (Elt F)) :
    after (List.take 77 (ops (F := F))) V (Proc.devRef .tc main_v3) = Cert.GcnSpec.dstRow (V (Proc.devRef .tc main_arg1)) := by
  simp only [ops, List.take_succ_cons, List.take_zero]
  after_results_simp
  rfl

set_option maxHeartbeats 4000000 in
/-- The first layer: features times weights, convolved over the edges, plus bias, `max · 0`. -/
theorem first_layer (V : Valuation τ sig (Elt F)) :
    after (List.take 77 (ops (F := F))) V (Proc.devRef .tc main_v59)
      = Cert.GcnSpec.layer1 (V (Proc.devRef .tc main_arg0)) (V (Proc.devRef .tc main_arg1)) (V (Proc.devRef .tc main_arg2)) (V (Proc.devRef .tc main_arg3)) := by
  simp only [ops, List.take_succ_cons, List.take_zero]
  after_results_simp
  rfl

set_option maxHeartbeats 4000000 in
/-- The first stretch writes none of the later arguments. -/
theorem first_keeps (V : Valuation τ sig (Elt F)) :
    after (List.take 77 (ops (F := F))) V (Proc.devRef .tc main_arg4) = (V (Proc.devRef .tc main_arg4))
      ∧ after (List.take 77 (ops (F := F))) V (Proc.devRef .tc main_arg5) = (V (Proc.devRef .tc main_arg5))
      ∧ after (List.take 77 (ops (F := F))) V (Proc.devRef .tc main_arg6) = (V (Proc.devRef .tc main_arg6))
      ∧ after (List.take 77 (ops (F := F))) V (Proc.devRef .tc main_arg7) = (V (Proc.devRef .tc main_arg7)) := by
  simp only [ops, List.take_succ_cons, List.take_zero]
  refine ⟨?_, ?_, ?_, ?_⟩ <;> after_results_simp <;> rfl

/-! ## The second stretch: operations 78–151, up to the second layer's output -/

set_option maxHeartbeats 4000000 in
/-- The second layer from the first layer's output `W main_v59`, the edge rows held in `main_v1` and `main_v3`, and
    the second layer's weights and bias. -/
theorem second_layer (W : Valuation τ sig (Elt F)) (x1 : (⟨S2x800000, .i32⟩ : BufTy).Contents (Elt F))
    (h1 : W (Proc.devRef .tc main_v1) = Cert.GcnSpec.srcRow x1) (h3 : W (Proc.devRef .tc main_v3) = Cert.GcnSpec.dstRow x1) :
    after (List.take 74 (List.drop 77 (ops (F := F)))) W (Proc.devRef .tc main_v116)
      = Cert.GcnSpec.layer2 (W (Proc.devRef .tc main_v59)) x1 (W (Proc.devRef .tc main_arg4)) (W (Proc.devRef .tc main_arg5)) := by
  simp only [ops, List.drop_succ_cons, List.drop_zero, List.take_succ_cons, List.take_zero]
  after_results_simp
  rw [h1, h3]
  rfl

set_option maxHeartbeats 4000000 in
/-- The second stretch writes neither of the last two arguments. -/
theorem second_keeps (W : Valuation τ sig (Elt F)) :
    after (List.take 74 (List.drop 77 (ops (F := F)))) W (Proc.devRef .tc main_arg6) = W (Proc.devRef .tc main_arg6)
      ∧ after (List.take 74 (List.drop 77 (ops (F := F)))) W (Proc.devRef .tc main_arg7) = W (Proc.devRef .tc main_arg7) := by
  simp only [ops, List.drop_succ_cons, List.drop_zero, List.take_succ_cons, List.take_zero]
  refine ⟨?_, ?_⟩ <;> after_results_simp <;> rfl

/-! ## The third stretch: operations 152–170, the scores and the logarithm of their softmax -/

set_option maxHeartbeats 4000000 in
/-- The result from the second layer's output `W main_v116`, the last weights and the last bias. -/
theorem third (W : Valuation τ sig (Elt F)) :
    after (List.drop 74 (List.drop 77 (ops (F := F)))) W (Proc.devRef .tc main_v121)
      = Cert.GcnSpec.classify (W (Proc.devRef .tc main_v116)) (W (Proc.devRef .tc main_arg6))
          (broadcastInDim S1x16 ![1] bcast_S16_S1x16_1 (W (Proc.devRef .tc main_arg7))) := by
  simp only [ops, List.drop_succ_cons, List.drop_zero]
  after_results_simp
  simp only [ofBuf_toBuf]
  rfl

/-! ## The whole line -/

/-- The result buffer after the whole line: the network of the eight arguments. -/
theorem result_eq (V : Valuation τ sig (Elt F)) :
    after (ops (F := F)) V (Proc.devRef .tc main_v121)
      = Cert.GcnSpec.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_cut 77 ops V, after_cut 74 (List.drop 77 ops) (after (List.take 77 ops) V), third,
    second_layer _ (V (Proc.devRef .tc main_arg1)) (first_src V) (first_dst V), (second_keeps _).1, (second_keeps _).2,
    first_layer, (first_keeps V).1, (first_keeps V).2.1, (first_keeps V).2.2.1, (first_keeps V).2.2.2]
  rfl

set_option maxHeartbeats 4000000 in
/-- No operation of the line writes an argument's buffer. -/
theorem args_eq (V : Valuation τ sig (Elt F)) :
    after (ops (F := F)) V (Proc.devRef .tc main_arg0) = (V (Proc.devRef .tc main_arg0))
      ∧ after (ops (F := F)) V (Proc.devRef .tc main_arg1) = (V (Proc.devRef .tc main_arg1))
      ∧ after (ops (F := F)) V (Proc.devRef .tc main_arg2) = (V (Proc.devRef .tc main_arg2))
      ∧ after (ops (F := F)) V (Proc.devRef .tc main_arg3) = (V (Proc.devRef .tc main_arg3))
      ∧ after (ops (F := F)) V (Proc.devRef .tc main_arg4) = (V (Proc.devRef .tc main_arg4))
      ∧ after (ops (F := F)) V (Proc.devRef .tc main_arg5) = (V (Proc.devRef .tc main_arg5))
      ∧ after (ops (F := F)) V (Proc.devRef .tc main_arg6) = (V (Proc.devRef .tc main_arg6))
      ∧ after (ops (F := F)) V (Proc.devRef .tc main_arg7) = (V (Proc.devRef .tc main_arg7)) := by
  refine ⟨?_, ?_, ?_, ?_, ?_, ?_, ?_, ?_⟩ <;> after_results_simp <;> rfl

set_option maxRecDepth 8192 in
set_option maxHeartbeats 68000000 in
/-- Every weakly fair execution of @main terminates with every buffer at the fold of the operations' results over
    its launch contents. -/
theorem fold_run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

/-- For any float values: every weakly fair execution of the reference's @main terminates with the result buffer at
    the network of the argument arrays and the arguments unchanged. -/
theorem run_general (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v121)
        = Cert.GcnSpec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v121).trans (result_eq (launchContents m c)),
      (h c main_arg0).trans (args_eq (launchContents m c)).1,
      (h c main_arg1).trans (args_eq (launchContents m c)).2.1,
      (h c main_arg2).trans (args_eq (launchContents m c)).2.2.1,
      (h c main_arg3).trans (args_eq (launchContents m c)).2.2.2.1,
      (h c main_arg4).trans (args_eq (launchContents m c)).2.2.2.2.1,
      (h c main_arg5).trans (args_eq (launchContents m c)).2.2.2.2.2.1,
      (h c main_arg6).trans (args_eq (launchContents m c)).2.2.2.2.2.2.1,
      (h c main_arg7).trans (args_eq (launchContents m c)).2.2.2.2.2.2.2⟩)
    (fold_run m ρ)

/-- The run at the exact extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v121)
        = Cert.GcnSpec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run_general m ρ

end Cert.RefRun

end
-- ==== Proof.lean ====
/-
  A two-layer graph convolution network with a residual connection, a linear classifier and a log-softmax, computed by
  a program of five kernel regions among host operations, against a plain array program: both, run on the exact
  extended reals from memories that agree on the eight arguments, end with the same result, entry by entry.

  Both programs compute ONE function of the arguments, the network of GcnSpec: from the edge list the degrees with a self
  loop, their inverse square roots, the edge and self weights; a layer is the features times a weight matrix, gathered
  along the edges, scaled, summed at the destinations, plus the self term and the bias, then `max · 0`; the second
  layer adds the first back; the classifier is a matrix product, a bias, and the scores minus their row maximum minus
  the logarithm of the row sum of their exponentials. The kernel's regions are the two matrix products (MatmulRows),
  the two combinations (CombineRows) and the classification (ClassifyRows), each leaving in its output array one
  whole-array function of the arrays it finds; the host operations between them are the reference's own. Gather,
  scatter-add and the power enter only as functions: equal operands, equal results. A product into a zero accumulator
  and the whole arrays' product are the same sum over the 64 contracted positions; a change of float format is the
  identity; a maximum started from minus infinity and then taken once more with minus infinity is the maximum; a vector
  reshaped to a column or a row is the vector broadcast along the new axis. No step needs the inputs finite, so the
  precondition is never opened. The idealization rewrote nothing, so what it preserves is trivial.
-/
import proofs.«165956_j55662776156458_2_alg».proof.Defs
import proofs.«165956_j55662776156458_2_alg».proof.Proof.Gen.Kernel
import proofs.«165956_j55662776156458_2_alg».proof.Proof.Gen.Kernel.Frame
import proofs.«165956_j55662776156458_2_alg».proof.Proof.Gen.KernelIdeal
import proofs.«165956_j55662776156458_2_alg».proof.Proof.Gen.KernelIdeal.Frame
import proofs.«165956_j55662776156458_2_alg».proof.Proof.Gen.ReferenceIdeal
import proofs.«165956_j55662776156458_2_alg».proof.Proof.Gen.Pre_finite_inputs
import proofs.«165956_j55662776156458_2_alg».proof.Proof.GcnSpec
import proofs.«165956_j55662776156458_2_alg».proof.Proof.KernelRun
import proofs.«165956_j55662776156458_2_alg».proof.Proof.KernelValue
import proofs.«165956_j55662776156458_2_alg».proof.Proof.RefRun
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.RefRun.run m ρ)

/-- The idealization rewrote no operation. -/
theorem preserves : Cert.preserves_Kernel_KernelIdeal := trivial

/-- Both runs end at the network of the arguments: the kernel's through its regions and host stretches, the reference's
    through its operations; the arguments agree, so the results do. -/
theorem algebraic : Cert.algebraic_KernelIdeal_ReferenceIdeal := by
  intro m ρ m' ρ' _ hagree
  refine ⟨fun c => Cert.GcnSpec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ResultValue.result m ρ c), (h c).2⟩)
      (Cert.KernelIdeal.ResultRun.run_result m ρ)
  · refine (θ_run Cert.ReferenceIdeal.defs _ _).mono (fun r h c => ⟨(h c).1.trans ?_, (h c).2⟩) (Cert.RefRun.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
